-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S100000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x256 : Shape := ⟨2, ![1, 256]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S1x128 : Shape := ⟨2, ![1, 128]⟩

abbrev nBuf : Space → Nat
  | .hbm => 61
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S_, .i32⟩
  | .hbm, ⟨15, _⟩ => ⟨S100000, .i32⟩
  | .hbm, ⟨16, _⟩ => ⟨S800000x1, .i32⟩
  | .hbm, ⟨17, _⟩ => ⟨S100000, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S100000x128, .f32⟩
  | .hbm, ⟨37, _⟩ => ⟨S800000x1, .i32⟩
  | .hbm, ⟨38, _⟩ => ⟨S100000x128, .f32⟩
  | .hbm, ⟨39, _⟩ => ⟨S128x256, .f32⟩
  | .hbm, ⟨40, _⟩ => ⟨S128x256, .f32⟩
  | .hbm, ⟨41, _⟩ => ⟨S1x256, .f32⟩
  | .hbm, ⟨42, _⟩ => ⟨S100000x256, .f32⟩
  | .hbm, ⟨43, _⟩ => ⟨S256x128, .f32⟩
  | .hbm, ⟨44, _⟩ => ⟨S100000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S100000x128, .f32⟩
  | .hbm, ⟨56, _⟩ => ⟨S800000x1, .i32⟩
  | .hbm, ⟨57, _⟩ => ⟨S100000x128, .f32⟩
  | .hbm, ⟨58, _⟩ => ⟨S256x128, .f32⟩
  | .hbm, ⟨59, _⟩ => ⟨S1x128, .f32⟩
  | .hbm, ⟨60, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S256x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x256, .f32⟩
  | .local _ .vmem, ⟨19, _⟩ => ⟨S4000x256, .f32⟩
  | .local _ .vmem, ⟨20, _⟩ => ⟨S4000x1, .f32⟩
  | .local _ .vmem, ⟨21, _⟩ => ⟨S4000x1, .f32⟩
  | .local _ .vmem, ⟨22, _⟩ => ⟨S1x128, .f32⟩
  | .local _ .vmem, ⟨23, _⟩ => ⟨S256x128, .f32⟩
  | .local _ .vmem, ⟨24, _⟩ => ⟨S4000x128, .f32⟩
  | .local _ .vmem, ⟨25, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  transposes_S128x256_S256x128_1_0 : S128x256.Transposes [1, 0] S256x128
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .f32 = 32 ∨ (Rect.block (s := S100000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S100000x256.size a
  hwx2_1 : ∀ i : grid2.Coords, EltTy.bits .f32 = 32 ∨ (Rect.block (s := S100000x256) S4000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x256, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S128x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S100000x256, .f32⟩
  | .hbm, ⟨59, _⟩ => ⟨S800000x1, .i32⟩
  | .hbm, ⟨60, _⟩ => ⟨S100000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S100000, .f32⟩
  | .hbm, ⟨65, _⟩ => ⟨S800000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S256x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S256x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x128_S100000x128_1_0_0_1_n_n_wf : DotDims.WF S100000x256 S256x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KRun.lean ====
/-
  The kernel program's run with its result named.

  Every weakly fair execution of @main from a memory with zero counters terminates without a fault, and in the final
  state every buffer that outlives the regions holds the fold's last contents: in particular the result buffer holds
  the fold's value at it, and each argument array what it held at launch.
-/
import proofs.«116486_j83820581748942_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the fold's value, the argument arrays as launched. -/
theorem run : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.KDefs.lean ====
/-
  The kernel program's host-side values, as functions of the argument arrays.

  From the `2 × E` array of edge words: the source words (row 0) and the destination words (row 1); the source column
  with a negative word moved up by the number of nodes, as an index is normalised before a gather; the destination
  column. From these: the aggregate of a feature array (rows gathered through the source column, accumulated from zero
  through the destination column); and the reciprocal-degree column (ones counted as integers through the destination
  column, converted to floats, floored at one, inverted, laid out as a column).
-/
import proofs.«116486_j83820581748942_2_alg».proof.Proof.Gen.KernelIdeal
import Idealize.ShloMosaic.PureOps.Ideal

noncomputable section

namespace Cert.KernelIdeal.K

open Idealize.ShloMosaic Cert.KernelIdeal Cert.KernelIdeal.Facts₀

/-- The source words: row 0 of the edge array. -/
def srcw (E : IVec S2x800000 32) : IVec S800000 32 :=
  shapeCast S800000 (extractStridedSlice S1x800000 ![0, 0] E slices_S2x800000_S1x800000_0_0) shapeCasts_S1x800000_S800000

/-- The destination words: row 1 of the edge array. -/
def dstw (E : IVec S2x800000 32) : IVec S800000 32 :=
  shapeCast S800000 (extractStridedSlice S1x800000 ![1, 0] E slices_S2x800000_S1x800000_1_0) shapeCasts_S1x800000_S800000

/-- The source column from the source words: a negative word moved up by the number of nodes. -/
def srcColW (sw : IVec S800000 32) : IVec S800000x1 32 :=
  broadcastInDim S800000x1 ![0] bcast_S800000_S800000x1_0
    (select (cmpi .slt sw (broadcastInDim S800000 ![] bcast_S_S800000 (constantI S_ 32 0#32)))
      (addi sw (broadcastInDim S800000 ![] bcast_S_S800000 (constantI S_ 32 100000#32))) sw)

/-- The destination column from the destination words. -/
def dstColW (dw : IVec S800000 32) : IVec S800000x1 32 :=
  broadcastInDim S800000x1 ![0] bcast_S800000_S800000x1_0 dw

/-- The source column of the edge array. -/
def srcCol (E : IVec S2x800000 32) : IVec S800000x1 32 := srcColW (srcw E)

/-- The destination column of the edge array. -/
def dstCol (E : IVec S2x800000 32) : IVec S800000x1 32 := dstColW (dstw E)

/-- The aggregate of a 128-channel feature array, from the two word vectors. -/
def aggrW (sw dw : IVec S800000 32) (X : FVec Ideal S100000x128 .f32) : FVec Ideal S100000x128 .f32 :=
  Host.scatterAdd scatter_S100000x128_S800000x1_S800000x128_1_0_0_1
    (broadcastInDim S100000x128 ![] bcast_S_S100000x128 (constant (F := Ideal) S_ .f32 0x00000000#32)) (dstColW dw)
    (Host.gather gather_S100000x128_S800000x1_S800000x128_1_0_n_n_0_1_1128 X (srcColW sw))

/-- The aggregate of a 128-channel feature array. -/
def aggr (E : IVec S2x800000 32) (X : FVec Ideal S100000x128 .f32) : FVec Ideal S100000x128 .f32 :=
  aggrW (srcw E) (dstw E) X

/-- The degree of every node, counted in 32-bit integers. -/
def intCount (E : IVec S2x800000 32) : IVec S100000 32 :=
  Host.scatter scatter_S100000_S800000x1_S800000_n_0_0_1 IntOp.addi
    (broadcastInDim S100000 ![] bcast_S_S100000 (constantI S_ 32 0#32)) (dstCol E)
    (broadcastInDim S800000 ![] bcast_S_S800000 (constantI S_ 32 1#32))

/-- The reciprocal of the degree floored at one, as a column. -/
def invCol (E : IVec S2x800000 32) : FVec Ideal S100000x1 .f32 :=
  shapeCast S100000x1
    (Host.divf (broadcastInDim S100000 ![] bcast_S_S100000 (constant (F := Ideal) S_ .f32 0x3F800000#32))
      (maximumf (sitofp .f32 (intCount E))
        (broadcastInDim S100000 ![] bcast_S_S100000 (constant (F := Ideal) S_ .f32 0x3F800000#32))))
    shapeCasts_S100000_S100000x1

end Cert.KernelIdeal.K

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibVecScatter.lean ====
/-
  Entries accumulated into a vector through a column of indices, read at an index.

  A column of R integer words, held as an R × 1 array, names one entry of a length-N vector for each of R positions.
  Accumulating a length-R vector of updates through it adds update e into entry word e of the operand when the word,
  read signed, lies in [0, N), and drops it otherwise. At the exact values the accumulated vector holds, at n, the
  operand's entry plus the sum of the updates over the positions whose word names n. For any extents; a printed
  record with these lists is this one by reflexivity. Also: a sum over a rank-1 index set is the sum over its one
  coordinate.
-/
import proofs.«116486_j83820581748942_2_alg».proof.Proof.LibGatherScatter

noncomputable section

open scoped BigOperators

namespace Cert.Lib.GatherScatter

open Idealize.ShloMosaic Idealize.ShloMosaic.ValueIdx

variable {N R w : Nat}

/-- A rank-1 index set is its one coordinate's range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) := by
  rw [← Equiv.sum_comp (idxEquiv1 (n := n)).symm f]
  rfl

/-- Two rank-1 indices are equal exactly when their coordinates are. -/
theorem ix1_inj {n : Nat} (a a' : Fin n) : ix1 a = ix1 a' ↔ a = a' :=
  ⟨fun h => congrFun h 0, fun h => by rw [h]⟩

section VecScatter
variable (wf : ScatterDims.WF ⟨1, ![N]⟩ ⟨2, ![R, 1]⟩ ⟨1, ![R]⟩ [] [0] [0] 1)

theorem vecScatter_start0 (idx : IVec ⟨2, ![R, 1]⟩ w) (e : Fin R) :
    (vecScatterDims N R wf).start (ix1 e) idx 0 = colInt idx e := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem vecScatter_window0 (e : Fin R) : (vecScatterDims N R wf).window (ix1 e) 0 = 0 := by
  unfold ScatterDims.window
  rw [dif_neg (show ¬ (0 : Fin 1) ∈ (vecScatterDims N R wf).sKept from
    fun h => (mem_kept _ _).mp h (List.mem_singleton.mpr rfl))]

/-- Where update e lands: at the entry its word names, nowhere when the word names none. -/
theorem vecScatter_resultIdx (idx : IVec ⟨2, ![R, 1]⟩ w) (e : Fin R) :
    (vecScatterDims N R wf).resultIdx? (ix1 e) idx = (scatterRow N idx e).map fun n => ix1 n := by
  unfold ScatterDims.resultIdx? scatterRow
  by_cases h : 0 ≤ colInt idx e ∧ colInt idx e < (N : Int)
  · have hall : ∀ a, 0 ≤ (vecScatterDims N R wf).start (ix1 e) idx a + (vecScatterDims N R wf).window (ix1 e) a
        ∧ (vecScatterDims N R wf).start (ix1 e) idx a + (vecScatterDims N R wf).window (ix1 e) a
          < ((⟨1, ![N]⟩ : Shape).size a : Int) := by
      intro a
      match a with
      | ⟨0, _⟩ =>
        rw [show (⟨0, _⟩ : Fin 1) = 0 from rfl, vecScatter_start0, vecScatter_window0]
        show 0 ≤ colInt idx e + ((0 : Nat) : Int) ∧ colInt idx e + ((0 : Nat) : Int) < (N : Int)
        omega
    rw [dif_pos hall, dif_pos h, Option.map_some]
    congr 1
    funext a
    refine Fin.ext ?_
    match a with
    | ⟨0, _⟩ =>
      show ((vecScatterDims N R wf).start (ix1 e) idx 0 + (vecScatterDims N R wf).window (ix1 e) 0).toNat = (colInt idx e).toNat
      rw [vecScatter_start0, vecScatter_window0]
      simp
  · rw [dif_neg h, Option.map_none, dif_neg]
    intro hall
    apply h
    have h0 := hall 0
    rw [vecScatter_start0, vecScatter_window0] at h0
    have h0' : 0 ≤ colInt idx e + ((0 : Nat) : Int) ∧ colInt idx e + ((0 : Nat) : Int) < (N : Int) := h0
    omega

/-- THE ACCUMULATION AT n, at the exact values: the operand's entry plus the updates over the positions whose word
    names n. -/
theorem vecScatterAdd_apply {φ : FTy} (x : FVec Ideal ⟨1, ![N]⟩ φ) (idx : IVec ⟨2, ![R, 1]⟩ w)
    (upd : FVec Ideal ⟨1, ![R]⟩ φ) (n : Fin N) :
    Host.scatterAdd (vecScatterDims N R wf) x idx upd (ix1 n)
      = x (ix1 n) + ∑ e ∈ Finset.univ.filter (fun e => scatterRow N idx e = some n), upd (ix1 e) := by
  show Ideal.hostScatterAdd (vecScatterDims N R wf) x idx upd (ix1 n) = _
  unfold Ideal.hostScatterAdd
  congr 1
  rw [Finset.sum_filter, sum_idx1, Finset.sum_filter]
  refine Finset.sum_congr rfl fun e _ => ?_
  simp only [vecScatter_resultIdx]
  cases hsr : scatterRow N idx e with
  | none => simp
  | some n' =>
    simp only [Option.map_some, Option.some.injEq, ix1_inj]

end VecScatter

end Cert.Lib.GatherScatter

end
-- ==== Proof.LibAddScatter.lean ====
/-
  A scatter whose body adds, read at an index, in any commutative additive monoid.

  The scatter takes the update positions one after the other and, for each whose result index lies inside the operand,
  replaces the operand's element there by that element plus the update's. Addition commutes and associates, so after
  all positions the element at `i` is the operand's element plus the sum of the updates whose result index is `i`
  (the updates landing outside contribute nothing): the same value the exact float accumulation has. Through an
  `R × 1` column of index words into a length-`N` vector this is the operand's entry plus the updates over the
  positions whose word names `n`; and with every update the integer `1` it is the number of those positions.
-/
import proofs.«116486_j83820581748942_2_alg».proof.Proof.LibVecScatter

noncomputable section

open scoped BigOperators

namespace Cert.Lib.AddScatter

open Idealize.ShloMosaic Idealize.ShloMosaic.ValueIdx Cert.Lib.GatherScatter

variable {α : Type} [AddCommMonoid α] {s si u : Shape} {w : Nat}

/-- One update position applied to the array so far. -/
def step (d : ScatterDims s si u) (idx : IVec si w) (upd : u.Idx → α) (r : s.Idx → α) (n : Fin u.numel) : s.Idx → α :=
  match d.resultIdx? (u.rowMajor.symm n) idx with
  | some i => fun i' => if i' = i then r i + upd (u.rowMajor.symm n) else r i'
  | none => r

/-- At an index, one step adds the update when the position's result index is that index, and nothing otherwise. -/
theorem step_apply (d : ScatterDims s si u) (idx : IVec si w) (upd : u.Idx → α) (r : s.Idx → α) (n : Fin u.numel)
    (i : s.Idx) :
    step d idx upd r n i
      = r i + (if d.resultIdx? (u.rowMajor.symm n) idx = some i then upd (u.rowMajor.symm n) else 0) := by
  unfold step
  cases h : d.resultIdx? (u.rowMajor.symm n) idx with
  | none => simp
  | some i0 =>
    by_cases hi : i = i0
    · subst hi; simp
    · have hne : ¬ (i0 = i) := fun e => hi e.symm
      simp [hi, hne]

/-- Folding the steps over a list of positions adds, at an index, the updates of the positions landing there. -/
theorem foldl_step_apply (d : ScatterDims s si u) (idx : IVec si w) (upd : u.Idx → α) (l : List (Fin u.numel))
    (x : s.Idx → α) (i : s.Idx) :
    (l.foldl (step d idx upd) x) i
      = x i + (l.map fun n => if d.resultIdx? (u.rowMajor.symm n) idx = some i then upd (u.rowMajor.symm n) else 0).sum := by
  induction l generalizing x with
  | nil => simp
  | cons a l ih => rw [List.foldl_cons, ih, step_apply, List.map_cons, List.sum_cons, add_assoc]

/-- THE ADDING SCATTER AT AN INDEX: the operand's element plus the updates whose result index it is. -/
theorem scatter_add_apply (d : ScatterDims s si u) (x : s.Idx → α) (idx : IVec si w) (upd : u.Idx → α) (i : s.Idx) :
    Host.scatter d (fun a b => a + b) x idx upd i
      = x i + ∑ j ∈ Finset.univ.filter (fun j => d.resultIdx? j idx = some i), upd j := by
  have h : Host.scatter d (fun a b => a + b) x idx upd = (List.finRange u.numel).foldl (step d idx upd) x := rfl
  rw [h, foldl_step_apply, Finset.sum_filter]
  congr 1
  rw [← Fin.sum_univ_def]
  exact Equiv.sum_comp u.rowMajor.symm (fun j => if d.resultIdx? j idx = some i then upd j else 0)

variable {N R : Nat}

/-- Through an `R × 1` column into a length-`N` vector: the entry plus the updates over the positions whose word
    names it. -/
theorem vecScatter_add_apply (wf : ScatterDims.WF ⟨1, ![N]⟩ ⟨2, ![R, 1]⟩ ⟨1, ![R]⟩ [] [0] [0] 1)
    (x : (⟨1, ![N]⟩ : Shape).Idx → α) (idx : IVec ⟨2, ![R, 1]⟩ w) (upd : (⟨1, ![R]⟩ : Shape).Idx → α) (n : Fin N) :
    Host.scatter (vecScatterDims N R wf) (fun a b => a + b) x idx upd (ix1 n)
      = x (ix1 n) + ∑ e ∈ Finset.univ.filter (fun e => scatterRow N idx e = some n), upd (ix1 e) := by
  rw [scatter_add_apply]
  congr 1
  rw [Finset.sum_filter, sum_idx1, Finset.sum_filter]
  refine Finset.sum_congr rfl fun e _ => ?_
  simp only [vecScatter_resultIdx]
  cases hsr : scatterRow N idx e with
  | none => simp
  | some n' => simp only [Option.map_some, Option.some.injEq, ix1_inj]

end Cert.Lib.AddScatter

end
-- ==== Proof.LibAlgRecip.lean ====
/-
  Division and square root of the exact instance, at real arguments, and the reciprocal form of a quotient.

    * `mul_div_one`: `x · (1 / M) = x / M` for `M ≠ 0` — at the infinities too, since both sides are `x · M⁻¹`;
    * `max_eps_ne_zero`: a quantity floored at a positive `ε` is not zero;
    * `div_real`, `sqrt_real`: on reals (nonzero divisor, nonnegative radicand) the two operations are the
      real ones.
-/
import Idealize.ShloMosaic.PureOps.Ideal

noncomputable section

namespace Cert.Lib.Alg

open Idealize.ShloMosaic

/-- Multiplying by the reciprocal is dividing, for a nonzero divisor. -/
theorem mul_div_one (x M : EReal) (hM : M ≠ 0) : x * Ideal.div 1 M = Ideal.div x M := by
  rw [Ideal.div, Ideal.div, if_neg hM, if_neg hM, one_mul]

/-- A maximum with a positive number is not zero. -/
theorem max_eps_ne_zero (y ε : EReal) (hε : 0 < ε) : max y ε ≠ 0 :=
  (lt_of_lt_of_le hε (le_max_right y ε)).ne'

/-- The quotient of two reals, the divisor nonzero, is the real quotient. -/
theorem div_real (x y : ℝ) (hy : y ≠ 0) : Ideal.div (x : EReal) (y : EReal) = ((x / y : ℝ) : EReal) := by
  rw [Ideal.div_coe hy, ← EReal.coe_mul, mul_one_div]

/-- The square root of a nonnegative real is the real square root. -/
theorem sqrt_real (x : ℝ) (hx : 0 ≤ x) : Ideal.sqrt (x : EReal) = ((Real.sqrt x : ℝ) : EReal) := by
  rw [Ideal.sqrt_coe, if_neg (not_lt.mpr hx)]

end Cert.Lib.Alg

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.SageLaw.lean ====
/-
  Two layers of mean-aggregating graph convolution, and the law that lets the second layer project before it aggregates.

  For a node `n` let `L n` be the edges landing on it and `g e` the node edge `e` reads from. The aggregate of node
  features `f` at `(n, k)` is `0 + ∑ e ∈ L n, f (g e) k`, and the mean scales it by a per-node factor `inv n`. A linear
  map with output-major weights sends features `a` to `∑ k, a n k · W q k`.

  The hidden layer is `max (lin (mean x) Wl + lin x Wr + b) 0`. The output layer can be computed two ways:
  aggregate the hidden features, take the mean, then apply `Wl` (`outR`); or apply `Wl` to every node first and
  aggregate and scale the projected features (`outK`). They agree because the aggregate and the scaling are linear:
    `(∑ e, ∑ q, h (g e) q · W j q) · r = ∑ q, ((∑ e, h (g e) q) · r) · W j q`.
  On the extended reals moving a factor across a sum fails at the infinities, so the law is stated for real data:
  every hidden feature, every weight and every scaling factor a real number. The hidden layer of real inputs is real.
-/
import Mathlib.Data.EReal.Operations
import Mathlib.Algebra.BigOperators.Fin
import Mathlib.Algebra.BigOperators.Ring.Finset
import Mathlib.Tactic.Ring
import proofs.«116486_j83820581748942_2_alg».proof.Proof.LibERealSums

noncomputable section

open scoped BigOperators

namespace Cert.Sage

open Cert.Lib.ERealSums

/-! ## Being a real number -/

/-- An extended real that is a real number. -/
def IsReal (a : EReal) : Prop := ∃ r : ℝ, a = (r : EReal)

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb; exact ⟨Max.max x y, coe_max_real x y⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-! ## The layers -/

variable {N E C H O : Nat}

section Layers
variable (L : Fin N → Finset (Fin E)) (g : Fin E → Fin N) (inv : Fin N → EReal)

/-- The features of the nodes the edges landing on `n` read from, summed (from zero). -/
def agg {K : Nat} (f : Fin N → Fin K → EReal) (n : Fin N) (k : Fin K) : EReal := 0 + ∑ e ∈ L n, f (g e) k

/-- The aggregate scaled by the node's factor. -/
def mean {K : Nat} (f : Fin N → Fin K → EReal) (n : Fin N) (k : Fin K) : EReal := agg L g f n k * inv n

/-- A linear map with output-major weights. -/
def lin {K M : Nat} (a : Fin N → Fin K → EReal) (W : Fin M → Fin K → EReal) (n : Fin N) (q : Fin M) : EReal :=
  ∑ k, a n k * W q k

/-- The hidden layer. -/
def hid (x : Fin N → Fin C → EReal) (Wl Wr : Fin H → Fin C → EReal) (b : Fin H → EReal) (n : Fin N) (q : Fin H) :
    EReal :=
  Max.max (lin (mean L g inv x) Wl n q + lin x Wr n q + b q) 0

/-- The output layer, projecting before aggregating. -/
def outK (h : Fin N → Fin H → EReal) (Wl Wr : Fin O → Fin H → EReal) (b : Fin O → EReal) (n : Fin N) (j : Fin O) :
    EReal :=
  lin h Wr n j + mean L g inv (lin h Wl) n j + b j

/-- The output layer, aggregating before projecting. -/
def outR (h : Fin N → Fin H → EReal) (Wl Wr : Fin O → Fin H → EReal) (b : Fin O → EReal) (n : Fin N) (j : Fin O) :
    EReal :=
  lin (mean L g inv h) Wl n j + b j + lin h Wr n j

theorem agg_real {K : Nat} {f : Fin N → Fin K → EReal} (hf : ∀ n k, IsReal (f n k)) (n : Fin N) (k : Fin K) :
    IsReal (agg L g f n k) :=
  IsReal.zero.add (IsReal.sum _ _ fun e _ => hf (g e) k)

theorem lin_real {K M : Nat} {a : Fin N → Fin K → EReal} {W : Fin M → Fin K → EReal} (ha : ∀ n k, IsReal (a n k))
    (hW : ∀ q k, IsReal (W q k)) (n : Fin N) (q : Fin M) : IsReal (lin a W n q) :=
  IsReal.sum _ _ fun k _ => (ha n k).mul (hW q k)

/-- The hidden layer of real inputs, with real scaling factors, is real. -/
theorem hid_real {x : Fin N → Fin C → EReal} {Wl Wr : Fin H → Fin C → EReal} {b : Fin H → EReal}
    (hinv : ∀ n, IsReal (inv n)) (hx : ∀ n k, IsReal (x n k)) (hWl : ∀ q k, IsReal (Wl q k))
    (hWr : ∀ q k, IsReal (Wr q k)) (hb : ∀ q, IsReal (b q)) (n : Fin N) (q : Fin H) :
    IsReal (hid L g inv x Wl Wr b n q) :=
  (((lin_real (fun n k => (agg_real L g hx n k).mul (hinv n)) hWl n q).add (lin_real hx hWr n q)).add (hb q)).max
    IsReal.zero

/-- Aggregating and scaling commute with a linear map, on real data. -/
theorem mean_lin {h : Fin N → Fin H → EReal} {W : Fin O → Fin H → EReal} (hh : ∀ n q, IsReal (h n q))
    (hW : ∀ j q, IsReal (W j q)) (hinv : ∀ n, IsReal (inv n)) (n : Fin N) (j : Fin O) :
    mean L g inv (lin h W) n j = lin (mean L g inv h) W n j := by
  choose hr hhr using hh
  choose wr hwr using hW
  choose r hr' using hinv
  simp only [mean, agg, lin, hhr, hwr, hr', zero_add, ← EReal.coe_mul, coe_sum_real]
  refine congrArg _ ?_
  simp only [Finset.sum_mul]
  rw [Finset.sum_comm]
  exact Finset.sum_congr rfl fun q _ => Finset.sum_congr rfl fun e _ => by ring

/-- THE LAW: projecting before aggregating gives the output layer, on real data. -/
theorem outK_eq_outR {h : Fin N → Fin H → EReal} {Wl Wr : Fin O → Fin H → EReal} {b : Fin O → EReal}
    (hh : ∀ n q, IsReal (h n q)) (hWl : ∀ j q, IsReal (Wl j q)) (hinv : ∀ n, IsReal (inv n)) (n : Fin N) (j : Fin O) :
    outK L g inv h Wl Wr b n j = outR L g inv h Wl Wr b n j := by
  unfold outK outR
  rw [mean_lin L g inv hh hWl hinv n j, add_comm (lin h Wr n j), add_right_comm]

end Layers

end Cert.Sage

end
-- ==== Proof.Degree.lean ====
/-
  The degree of a node, its floor at one, and the reciprocal both programs scale by.

  Through an `R × 1` column of index words, `landing n` is the set of positions whose word names `n`. The degree is
  their number: the exact float accumulation of ones from zero gives it as a sum of ones, and an integer scatter
  whose body adds, started from zero with every update one, gives the 32-bit word of that number; read as a signed
  integer and converted to a float it is the same real number as long as there are fewer than 2^31 positions.
  The denominator `max (degree) 1` is a real number at least one, so it is not zero; hence dividing by it is
  multiplying by `1 / max (degree) 1`, at the infinities too, and that reciprocal is a real number.
-/
import proofs.«116486_j83820581748942_2_alg».proof.Proof.LibAddScatter
import proofs.«116486_j83820581748942_2_alg».proof.Proof.LibAlgRecip
import proofs.«116486_j83820581748942_2_alg».proof.Proof.SageLaw
import Idealize.ShloMosaic.Lib.IdealHost
import Idealize.ShloMosaic.PureOps.Reduce
import Mathlib.Data.BitVec

noncomputable section

open scoped BigOperators

namespace Cert.Sage

open Idealize.ShloMosaic Idealize.ShloMosaic.ValueIdx Cert.Lib.GatherScatter Cert.Lib.ERealSums

variable {N R w : Nat}

/-- The positions whose word names `n`. -/
def landing (N : Nat) (idx : IVec ⟨2, ![R, 1]⟩ w) (n : Fin N) : Finset (Fin R) :=
  Finset.univ.filter (fun e => scatterRow N idx e = some n)

/-- The degree of `n`, as the accumulation of ones from zero. -/
def deg (N : Nat) (idx : IVec ⟨2, ![R, 1]⟩ w) (n : Fin N) : EReal := 0 + ∑ _e ∈ landing N idx n, (1 : EReal)

theorem deg_eq (idx : IVec ⟨2, ![R, 1]⟩ w) (n : Fin N) : deg N idx n = (((landing N idx n).card : ℝ) : EReal) := by
  unfold deg
  rw [zero_add, show (1 : EReal) = ((1 : ℝ) : EReal) from EReal.coe_one.symm, coe_sum_real]
  simp

/-- The degree floored at one. -/
def den (N : Nat) (idx : IVec ⟨2, ![R, 1]⟩ w) (n : Fin N) : EReal := max (deg N idx n) 1

theorem den_eq (idx : IVec ⟨2, ![R, 1]⟩ w) (n : Fin N) :
    den N idx n = ((max ((landing N idx n).card : ℝ) 1 : ℝ) : EReal) := by
  unfold den
  rw [deg_eq, show (1 : EReal) = ((1 : ℝ) : EReal) from EReal.coe_one.symm, coe_max_real]

theorem den_real_ne_zero (idx : IVec ⟨2, ![R, 1]⟩ w) (n : Fin N) : (max ((landing N idx n).card : ℝ) 1 : ℝ) ≠ 0 :=
  (lt_of_lt_of_le one_pos (le_max_right _ _)).ne'

theorem den_ne_zero (idx : IVec ⟨2, ![R, 1]⟩ w) (n : Fin N) : den N idx n ≠ 0 := by
  rw [den_eq]
  exact fun h => den_real_ne_zero idx n (EReal.coe_eq_zero.mp h)

/-- The reciprocal of the floored degree. -/
def inv (N : Nat) (idx : IVec ⟨2, ![R, 1]⟩ w) (n : Fin N) : EReal := Ideal.div 1 (den N idx n)

theorem inv_real (idx : IVec ⟨2, ![R, 1]⟩ w) (n : Fin N) : IsReal (inv N idx n) := by
  unfold inv
  rw [den_eq, Ideal.div_coe (den_real_ne_zero idx n), one_mul]
  exact ⟨_, rfl⟩

/-- Dividing by the floored degree is multiplying by its reciprocal. -/
theorem div_den (idx : IVec ⟨2, ![R, 1]⟩ w) (n : Fin N) (a : EReal) : Ideal.div a (den N idx n) = a * inv N idx n :=
  (Cert.Lib.Alg.mul_div_one a (den N idx n) (den_ne_zero idx n)).symm

/-- A number below 2^31, as a 32-bit word read signed, is itself. -/
theorem toInt_ofNat_small (k : Nat) (hk : k < 2147483648) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- The integer scatter of ones from zero counts the positions landing on `n`. -/
theorem intDeg (wf : ScatterDims.WF ⟨1, ![N]⟩ ⟨2, ![R, 1]⟩ ⟨1, ![R]⟩ [] [0] [0] 1) (idx : IVec ⟨2, ![R, 1]⟩ w)
    (n : Fin N) :
    Host.scatter (vecScatterDims N R wf) IntOp.addi (fun _ => (0#32 : BitVec 32)) idx (fun _ => (1#32 : BitVec 32)) (ix1 n)
      = BitVec.ofNat 32 (landing N idx n).card := by
  rw [IntOp.addi_eq_add]
  refine (Cert.Lib.AddScatter.vecScatter_add_apply (α := BitVec 32) wf (fun _ => (0#32 : BitVec 32)) idx
    (fun _ => (1#32 : BitVec 32)) n).trans ?_
  show (0#32 : BitVec 32) + ∑ _e ∈ landing N idx n, (1#32 : BitVec 32) = _
  rw [Finset.sum_const, BitVec.zero_add]
  simp [BitVec.natCast_eq_ofNat]

/-- The integer count converted to a float is the degree, for fewer than 2^31 positions. -/
theorem sitofp_intDeg (hR : R < 2147483648) (idx : IVec ⟨2, ![R, 1]⟩ w) (n : Fin N) :
    (((BitVec.ofNat 32 (landing N idx n).card).toInt : ℝ) : EReal) = deg N idx n := by
  have hc : (landing N idx n).card < 2147483648 :=
    lt_of_le_of_lt ((Finset.card_le_univ _).trans_eq (Fintype.card_fin R)) hR
  rw [toInt_ofNat_small _ hc, deg_eq]
  norm_cast

end Cert.Sage

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Bodies.lean ====
/-
  The three kernel bodies read at an index, at the exact values.

  Each body stores one tile of 4000 rows. At the exact values a change of float format is the identity, so:
    * the full layer stores, at `(r, q)`, `max ((∑ k, (agg (r,k) · inv (r,0)) · Wl (k,q)) + (∑ k, root (r,k) · Wr (k,q)) + b (0,q)) 0`;
    * the projection stores `∑ q, root (r,q) · W (q,j)`;
    * the final combine stores `(∑ q, root (r,q) · Wr (q,j)) + agg (r,j) · inv (r,0) + b (0,j)`.
  Here `inv` is a column, read at its one entry per row, and `b` a row, read at its one entry per column; both matrix
  products start from the zero array.
-/
import proofs.«116486_j83820581748942_2_alg».proof.Proof.Gen.KernelIdeal.Skeleton
import proofs.«116486_j83820581748942_2_alg».proof.Proof.LibPlainDot
import proofs.«116486_j83820581748942_2_alg».proof.Proof.LibKeepdims
import proofs.«116486_j83820581748942_2_alg».proof.Proof.LibRowBroadcasts
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen
open Cert.KernelIdeal.Facts₀

/-- The 4000×128 by 128×256 product into the zero array, at `(r, q)`. -/
theorem mm_in (l : FVec Ideal S4000x128 .bf16) (w : FVec Ideal S128x256 .bf16) (r : Fin 4000) (q : Fin 256) :
    matmul dot_S4000x128_S128x256_S4000x256_1_0_0_1_n_n none l w (constant (F := Ideal) S4000x256 .f32 0x00000000#32) (ix2 r q)
      = ∑ k : Fin 128, l (ix2 r k) * w (ix2 k q) :=
  Cert.Lib.PlainDot.matmul_zero_apply (a := 4000) (c := 128) (b := 256)
    Facts₀.dot_S4000x128_S128x256_S4000x256_1_0_0_1_n_n_wf none l w r q

/-- The 4000×256 by 256×128 product into the zero array, at `(r, j)`. -/
theorem mm_out (l : FVec Ideal S4000x256 .bf16) (w : FVec Ideal S256x128 .bf16) (r : Fin 4000) (j : Fin 128) :
    matmul dot_S4000x256_S256x128_S4000x128_1_0_0_1_n_n none l w (constant (F := Ideal) S4000x128 .f32 0x00000000#32) (ix2 r j)
      = ∑ q : Fin 256, l (ix2 r q) * w (ix2 q j) :=
  Cert.Lib.PlainDot.matmul_zero_apply (a := 4000) (c := 256) (b := 128)
    Facts₀.dot_S4000x256_S256x128_S4000x128_1_0_0_1_n_n_wf none l w r j

/-- The full layer's tile at `(r, q)`. -/
theorem full_apply (v0 : Vec Ideal S4000x128 .f32) (v2 : Vec Ideal S4000x1 .f32) (v7 : Vec Ideal S4000x128 .f32)
    (v9 v12 : Vec Ideal S128x256 .f32) (v18 : Vec Ideal S1x256 .f32) (r : Fin 4000) (q : Fin 256) :
    k0_pay1 (F := Ideal) v0 v2 v7 v9 v12 v18 (ix2 r q)
      = max ((∑ k : Fin 128, (v0 (ix2 r k) * v2 (ix2 r (0 : Fin 1))) * v9 (ix2 k q))
          + (∑ k : Fin 128, v7 (ix2 r k) * v12 (ix2 k q)) + v18 (ix2 (0 : Fin 1) q)) 0 := by
  unfold k0_pay1
  simp only [maximumf_apply, addf_apply, broadcast_apply, mm_in, truncf_apply, mulf_apply, shapeCast_self,
    Cert.Lib.Keepdims.bcastCol_apply, Cert.Lib.Rows.bcastRow_apply]
  exact congrArg _ Ideal.ofBits_zero_f32

/-- The projection's tile at `(r, j)`. -/
theorem project_apply (v0 : Vec Ideal S4000x256 .f32) (v3 : Vec Ideal S256x128 .f32) (r : Fin 4000) (j : Fin 128) :
    k1_pay1 (F := Ideal) v0 v3 (ix2 r j) = ∑ q : Fin 256, v0 (ix2 r q) * v3 (ix2 q j) := by
  unfold k1_pay1
  simp only [mm_out, truncf_apply, shapeCast_self]

/-- The final combine's tile at `(r, j)`. -/
theorem final_apply (v0 : Vec Ideal S4000x128 .f32) (v2 : Vec Ideal S4000x1 .f32) (v6 : Vec Ideal S4000x256 .f32)
    (v9 : Vec Ideal S256x128 .f32) (v14 : Vec Ideal S1x128 .f32) (r : Fin 4000) (j : Fin 128) :
    k2_pay1 (F := Ideal) v0 v2 v6 v9 v14 (ix2 r j)
      = (∑ q : Fin 256, v6 (ix2 r q) * v9 (ix2 q j)) + v0 (ix2 r j) * v2 (ix2 r (0 : Fin 1)) + v14 (ix2 (0 : Fin 1) j) := by
  unfold k2_pay1
  simp only [addf_apply, mm_out, truncf_apply, mulf_apply, shapeCast_self, Cert.Lib.Keepdims.bcastCol_apply,
    Cert.Lib.Rows.bcastRow_apply]

end Cert.KernelIdeal.Body

end
-- ==== Proof.Region0.lean ====
/-
  The first region: the hidden layer, tile by tile, as one function of the arrays the region finds.

  The grid has 25 points; point `t` reads rows `4000·t … 4000·t + 3999` of the aggregate, of the node features and of
  the reciprocal-degree column, reads both weight matrices and the bias row whole, and writes back rows
  `4000·t … 4000·t + 3999` of the result. So the result array, after the region, holds at `(n, q)`
    `max ((∑ k, (A (n,k) · I (n,0)) · Wl (k,q)) + (∑ k, X (n,k) · Wr (k,q)) + B (0,q)) 0`
  of the arrays `A X I Wl B Wr` as the region finds them: every row lies in exactly one tile, `n = 4000·(n / 4000) + n % 4000`.
-/
import proofs.«116486_j83820581748942_2_alg».proof.Proof.Gen.KernelIdeal.Frame
import proofs.«116486_j83820581748942_2_alg».proof.Proof.Bodies
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row `4000·t + r` of the 100000 rows: row `r` of the tile of grid point `t`. -/
def row (t : Fin cfg0.N) (r : Fin 4000) : Fin 100000 :=
  ⟨4000 * t.val + r.val, by
    have h : t.val < grid0.N := t.isLt
    have hN : grid0.N = 25 := N_0
    have := r.isLt
    omega⟩

/-- The hidden layer of whole arrays, index by index. -/
def G (A X : S100000x128.Idx → EReal) (I : S100000x1.Idx → EReal) (Wl : S128x256.Idx → EReal)
    (B : S1x256.Idx → EReal) (Wr : S128x256.Idx → EReal) : S100000x256.Idx → EReal := fun i =>
  max ((∑ k : Fin 128, (A (ix2 (i 0) k) * I (ix2 (i 0) (0 : Fin 1))) * Wl (ix2 k (i 1)))
    + (∑ k : Fin 128, X (ix2 (i 0) k) * Wr (ix2 k (i 1))) + B (ix2 (0 : Fin 1) (i 1))) 0

/-- The aggregate's tile at point `t` is rows `4000·t …` of its array. -/
theorem blk0 (c : Dev nD) (t : Fin cfg0.N) (r : Fin 4000) (k : Fin 128) :
    iblk0 (F := Ideal) V c 0 t (ix2 r k) = (V c main_v23 : S100000x128.Idx → EReal) (ix2 (row t r) k) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_v23 _ = V c main_v23 _
  congr 1
  funext a
  apply Fin.ext
  match a with
  | ⟨0, _⟩ => show win0_0.index t 0 * 4000 + 1 * r.val = 4000 * t.val + r.val; rw [hi.1]; omega
  | ⟨1, _⟩ => show win0_0.index t 1 * 128 + 1 * k.val = k.val; rw [hi.2]; omega

/-- The node features' tile at point `t` is rows `4000·t …` of the features. -/
theorem blk1 (c : Dev nD) (t : Fin cfg0.N) (r : Fin 4000) (k : Fin 128) :
    iblk0 (F := Ideal) V c 1 t (ix2 r k) = (V c main_arg0 : S100000x128.Idx → EReal) (ix2 (row t r) k) := by
  have hi : win0_1.index t 0 = t.val ∧ win0_1.index t 1 = 0 :=
    (by decide +kernel : ∀ t : Fin grid0.N, win0_1.index t 0 = t.val ∧ win0_1.index t 1 = 0) t
  unfold iblk0
  rw [View.read_apply]
  show V c main_arg0 _ = V c main_arg0 _
  congr 1
  funext a
  apply Fin.ext
  match a with
  | ⟨0, _⟩ => show win0_1.index t 0 * 4000 + 1 * r.val = 4000 * t.val + r.val; rw [hi.1]; omega
  | ⟨1, _⟩ => show win0_1.index t 1 * 128 + 1 * k.val = k.val; rw [hi.2]; omega

/-- The reciprocal-degree column's tile at point `t` is rows `4000·t …` of the column. -/
theorem blk2 (c : Dev nD) (t : Fin cfg0.N) (r : Fin 4000) (u : Fin 1) :
    iblk0 (F := Ideal) V c 2 t (ix2 r u) = (V c main_v13 : S100000x1.Idx → EReal) (ix2 (row t r) u) := by
  have hi : win0_2.index t 0 = t.val ∧ win0_2.index t 1 = 0 :=
    (by decide +kernel : ∀ t : Fin grid0.N, win0_2.index t 0 = t.val ∧ win0_2.index t 1 = 0) t
  unfold iblk0
  rw [View.read_apply]
  show V c main_v13 _ = V c main_v13 _
  congr 1
  funext a
  apply Fin.ext
  match a with
  | ⟨0, _⟩ => show win0_2.index t 0 * 4000 + 1 * r.val = 4000 * t.val + r.val; rw [hi.1]; omega
  | ⟨1, _⟩ => show win0_2.index t 1 * 1 + 1 * u.val = u.val; rw [hi.2]; omega

/-- The neighbour weights are read whole at every point. -/
theorem blk3 (c : Dev nD) (t : Fin cfg0.N) (a : Fin 128) (b : Fin 256) :
    iblk0 (F := Ideal) V c 3 t (ix2 a b) = (V c main_v24 : S128x256.Idx → EReal) (ix2 a b) := by
  have hi : win0_3.index t 0 = 0 ∧ win0_3.index t 1 = 0 :=
    (by decide +kernel : ∀ t : Fin grid0.N, win0_3.index t 0 = 0 ∧ win0_3.index t 1 = 0) t
  unfold iblk0
  rw [View.read_apply]
  show V c main_v24 _ = V c main_v24 _
  congr 1
  funext x
  apply Fin.ext
  match x with
  | ⟨0, _⟩ => show win0_3.index t 0 * 128 + 1 * a.val = a.val; rw [hi.1]; omega
  | ⟨1, _⟩ => show win0_3.index t 1 * 256 + 1 * b.val = b.val; rw [hi.2]; omega

/-- The bias row is read whole at every point. -/
theorem blk4 (c : Dev nD) (t : Fin cfg0.N) (a : Fin 1) (b : Fin 256) :
    iblk0 (F := Ideal) V c 4 t (ix2 a b) = (V c main_v26 : S1x256.Idx → EReal) (ix2 a b) := by
  have hi : win0_4.index t 0 = 0 ∧ win0_4.index t 1 = 0 :=
    (by decide +kernel : ∀ t : Fin grid0.N, win0_4.index t 0 = 0 ∧ win0_4.index t 1 = 0) t
  unfold iblk0
  rw [View.read_apply]
  show V c main_v26 _ = V c main_v26 _
  congr 1
  funext x
  apply Fin.ext
  match x with
  | ⟨0, _⟩ => show win0_4.index t 0 * 1 + 1 * a.val = a.val; rw [hi.1]; omega
  | ⟨1, _⟩ => show win0_4.index t 1 * 256 + 1 * b.val = b.val; rw [hi.2]; omega

/-- The root weights are read whole at every point. -/
theorem blk5 (c : Dev nD) (t : Fin cfg0.N) (a : Fin 128) (b : Fin 256) :
    iblk0 (F := Ideal) V c 5 t (ix2 a b) = (V c main_v25 : S128x256.Idx → EReal) (ix2 a b) := by
  have hi : win0_5.index t 0 = 0 ∧ win0_5.index t 1 = 0 :=
    (by decide +kernel : ∀ t : Fin grid0.N, win0_5.index t 0 = 0 ∧ win0_5.index t 1 = 0) t
  unfold iblk0
  rw [View.read_apply]
  show V c main_v25 _ = V c main_v25 _
  congr 1
  funext x
  apply Fin.ext
  match x with
  | ⟨0, _⟩ => show win0_5.index t 0 * 128 + 1 * a.val = a.val; rw [hi.1]; omega
  | ⟨1, _⟩ => show win0_5.index t 1 * 256 + 1 * b.val = b.val; rw [hi.2]; omega

/-- Where the result tile's element `(r, q)` sits in the result array. -/
theorem emb_out (t : Fin cfg0.N) (r : Fin 4000) (q : Fin 256) :
    ((cfg0.win 6).blk t).view.emb (ix2 r q) = (ix2 (row t r) q : S100000x256.Idx) := by
  have hi : win0_6.index t 0 = t.val ∧ win0_6.index t 1 = 0 :=
    (by decide +kernel : ∀ t : Fin grid0.N, win0_6.index t 0 = t.val ∧ win0_6.index t 1 = 0) t
  funext a
  apply Fin.ext
  match a with
  | ⟨0, _⟩ => show win0_6.index t 0 * 4000 + 1 * r.val = 4000 * t.val + r.val; rw [hi.1]; omega
  | ⟨1, _⟩ => show win0_6.index t 1 * 256 + 1 * q.val = q.val; rw [hi.2]; omega

/-- WHAT POINT `t` WRITES BACK is tile `t` of the hidden layer of the arrays the region finds. -/
theorem flushed_eq (c : Dev nD) (t : Fin cfg0.N) :
    (dat0 (F := Ideal) V c).flushed 6 t = ((cfg0.win 6).blk t).view.read (Elt Ideal)
      (G (V c main_v23) (V c main_arg0) (V c main_v13) (V c main_v24) (V c main_v26) (V c main_v25)) := by
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S4000x1) hz,
    View.ld_unit_zero (S := S128x256) hz, View.ld_unit_zero (S := S1x256) hz]
  funext j
  obtain ⟨r, q, rfl⟩ : ∃ (r : Fin 4000) (q : Fin 256), j = ix2 r q := ⟨j 0, j 1, eq_ix2 j⟩
  show k0_pay1 (F := Ideal) (iblk0 V c 0 t) (iblk0 V c 2 t) (iblk0 V c 1 t) (iblk0 V c 3 t) (iblk0 V c 5 t) (iblk0 V c 4 t) (ix2 r q)
    = G (V c main_v23) (V c main_arg0) (V c main_v13) (V c main_v24) (V c main_v26) (V c main_v25)
        (((cfg0.win 6).blk t).view.emb (ix2 r q))
  refine (Cert.KernelIdeal.Body.full_apply _ _ _ _ _ _ r q).trans ?_
  rw [emb_out]
  simp only [blk0, blk1, blk2, blk3, blk4, blk5]
  rfl

/-- Every row lies in the tile of point `row / 4000`. -/
theorem cover (i : S100000x256.Idx) :
    ∃ t : Fin cfg0.N, (cfg0.win 6).flush t = true ∧ i ∈ ((cfg0.win 6).blk t).view.set := by
  have h0 : (i 0 : Nat) < 100000 := (i 0).isLt
  have h1 : (i 1 : Nat) < 256 := (i 1).isLt
  let t : Fin cfg0.N := ⟨(i 0 : Nat) / 4000, by rw [show cfg0.N = 25 from N_0]; omega⟩
  have hi : win0_6.index t 0 = t.val ∧ win0_6.index t 1 = 0 ∧ win0_6.xsize (grid0.coords t) 0 = 4000
      ∧ win0_6.xsize (grid0.coords t) 1 = 256 :=
    (by decide +kernel : ∀ t : Fin grid0.N, win0_6.index t 0 = t.val ∧ win0_6.index t 1 = 0
      ∧ win0_6.xsize (grid0.coords t) 0 = 4000 ∧ win0_6.xsize (grid0.coords t) 1 = 256) t
  refine ⟨t, flush0_6 t, ?_⟩
  show i ∈ ((View.whole main_v27).slice (win0_6.rect t)).set
  rw [View.set_slice_whole, Rect.mem_set_unit]
  intro a
  match a with
  | ⟨0, _⟩ =>
    show win0_6.index t 0 * 4000 ≤ (i 0 : Nat) ∧ (i 0 : Nat) < win0_6.index t 0 * 4000 + win0_6.xsize (grid0.coords t) 0
    rw [hi.1, hi.2.2.1]
    show (i 0 : Nat) / 4000 * 4000 ≤ (i 0 : Nat) ∧ (i 0 : Nat) < (i 0 : Nat) / 4000 * 4000 + 4000
    omega
  | ⟨1, _⟩ =>
    show win0_6.index t 1 * 256 ≤ (i 1 : Nat) ∧ (i 1 : Nat) < win0_6.index t 1 * 256 + win0_6.xsize (grid0.coords t) 1
    rw [hi.2.1, hi.2.2.2]
    omega

/-- THE RESULT ARRAY after the region: the hidden layer of the arrays the region finds. -/
theorem final (c : Dev nD) :
    (dat0 (F := Ideal) V c).arrAt 6 cfg0.N
      = G (V c main_v23) (V c main_arg0) (V c main_v13) (V c main_v24) (V c main_v26) (V c main_v25) :=
  (dat0 (F := Ideal) V c).arrAt_eq_of_cover 6 _ (fun t _ => flushed_eq V c t) (cover)

end Cert.KernelIdeal.Region0

end
-- ==== Proof.Region1.lean ====
/-
  The second region: the projection of the hidden features, tile by tile, as one function of the arrays it finds.

  Point `t` of 25 reads rows `4000·t … 4000·t + 3999` of the hidden features, reads the weight matrix whole, and
  writes back the same rows of the result: after the region the result array holds, at `(n, j)`,
  `∑ q, H (n,q) · W (q,j)`.
-/
import proofs.«116486_j83820581748942_2_alg».proof.Proof.Gen.KernelIdeal.Frame
import proofs.«116486_j83820581748942_2_alg».proof.Proof.Bodies
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row `4000·t + r` of the 100000 rows: row `r` of the tile of grid point `t`. -/
def row (t : Fin cfg1.N) (r : Fin 4000) : Fin 100000 :=
  ⟨4000 * t.val + r.val, by
    have h : t.val < grid1.N := t.isLt
    have hN : grid1.N = 25 := N_1
    have := r.isLt
    omega⟩

/-- The projection of whole arrays, index by index. -/
def G (H : S100000x256.Idx → EReal) (W : S256x128.Idx → EReal) : S100000x128.Idx → EReal := fun i =>
  ∑ q : Fin 256, H (ix2 (i 0) q) * W (ix2 q (i 1))

/-- The hidden features' tile at point `t` is rows `4000·t …` of the hidden features. -/
theorem blk0 (c : Dev nD) (t : Fin cfg1.N) (r : Fin 4000) (k : Fin 256) :
    iblk1 (F := Ideal) V c 0 t (ix2 r k) = (V c main_v27 : S100000x256.Idx → EReal) (ix2 (row t r) k) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_v27 _ = V c main_v27 _
  congr 1
  funext a
  apply Fin.ext
  match a with
  | ⟨0, _⟩ => show win1_0.index t 0 * 4000 + 1 * r.val = 4000 * t.val + r.val; rw [hi.1]; omega
  | ⟨1, _⟩ => show win1_0.index t 1 * 256 + 1 * k.val = k.val; rw [hi.2]; omega

/-- The weights are read whole at every point. -/
theorem blk1 (c : Dev nD) (t : Fin cfg1.N) (a : Fin 256) (b : Fin 128) :
    iblk1 (F := Ideal) V c 1 t (ix2 a b) = (V c main_v28 : S256x128.Idx → EReal) (ix2 a b) := by
  have hi : win1_1.index t 0 = 0 ∧ win1_1.index t 1 = 0 :=
    (by decide +kernel : ∀ t : Fin grid1.N, win1_1.index t 0 = 0 ∧ win1_1.index t 1 = 0) t
  unfold iblk1
  rw [View.read_apply]
  show V c main_v28 _ = V c main_v28 _
  congr 1
  funext x
  apply Fin.ext
  match x with
  | ⟨0, _⟩ => show win1_1.index t 0 * 256 + 1 * a.val = a.val; rw [hi.1]; omega
  | ⟨1, _⟩ => show win1_1.index t 1 * 128 + 1 * b.val = b.val; rw [hi.2]; omega

/-- Where the result tile's element `(r, j)` sits in the result array. -/
theorem emb_out (t : Fin cfg1.N) (r : Fin 4000) (j : Fin 128) :
    ((cfg1.win 2).blk t).view.emb (ix2 r j) = (ix2 (row t r) j : S100000x128.Idx) := by
  have hi : win1_2.index t 0 = t.val ∧ win1_2.index t 1 = 0 :=
    (by decide +kernel : ∀ t : Fin grid1.N, win1_2.index t 0 = t.val ∧ win1_2.index t 1 = 0) t
  funext a
  apply Fin.ext
  match a with
  | ⟨0, _⟩ => show win1_2.index t 0 * 4000 + 1 * r.val = 4000 * t.val + r.val; rw [hi.1]; omega
  | ⟨1, _⟩ => show win1_2.index t 1 * 128 + 1 * j.val = j.val; rw [hi.2]; omega

/-- WHAT POINT `t` WRITES BACK is tile `t` of the projection of the arrays the region finds. -/
theorem flushed_eq (c : Dev nD) (t : Fin cfg1.N) :
    (dat1 (F := Ideal) V c).flushed 2 t = ((cfg1.win 2).blk t).view.read (Elt Ideal)
      (G (V c main_v27) (V c main_v28)) := by
  show (cfg1.win 2).cut (grid1.coords t) ((dat1 (F := Ideal) V c).after 2 t) = _
  rw [after1_2]
  unfold out1_2
  rw [View.canon_unit_zero hz]
  simp only [View.ld_unit_zero (S := S4000x256) hz, View.ld_unit_zero (S := S256x128) hz]
  funext j
  obtain ⟨r, q, rfl⟩ : ∃ (r : Fin 4000) (q : Fin 128), j = ix2 r q := ⟨j 0, j 1, eq_ix2 j⟩
  show k1_pay1 (F := Ideal) (iblk1 V c 0 t) (iblk1 V c 1 t) (ix2 r q)
    = G (V c main_v27) (V c main_v28) (((cfg1.win 2).blk t).view.emb (ix2 r q))
  refine (Cert.KernelIdeal.Body.project_apply _ _ r q).trans ?_
  rw [emb_out]
  simp only [blk0, blk1]
  rfl

/-- Every row lies in the tile of point `row / 4000`. -/
theorem cover (i : S100000x128.Idx) :
    ∃ t : Fin cfg1.N, (cfg1.win 2).flush t = true ∧ i ∈ ((cfg1.win 2).blk t).view.set := by
  have h0 : (i 0 : Nat) < 100000 := (i 0).isLt
  have h1 : (i 1 : Nat) < 128 := (i 1).isLt
  let t : Fin cfg1.N := ⟨(i 0 : Nat) / 4000, by rw [show cfg1.N = 25 from N_1]; omega⟩
  have hi : win1_2.index t 0 = t.val ∧ win1_2.index t 1 = 0 ∧ win1_2.xsize (grid1.coords t) 0 = 4000
      ∧ win1_2.xsize (grid1.coords t) 1 = 128 :=
    (by decide +kernel : ∀ t : Fin grid1.N, win1_2.index t 0 = t.val ∧ win1_2.index t 1 = 0
      ∧ win1_2.xsize (grid1.coords t) 0 = 4000 ∧ win1_2.xsize (grid1.coords t) 1 = 128) t
  refine ⟨t, flush1_2 t, ?_⟩
  show i ∈ ((View.whole main_v29).slice (win1_2.rect t)).set
  rw [View.set_slice_whole, Rect.mem_set_unit]
  intro a
  match a with
  | ⟨0, _⟩ =>
    show win1_2.index t 0 * 4000 ≤ (i 0 : Nat) ∧ (i 0 : Nat) < win1_2.index t 0 * 4000 + win1_2.xsize (grid1.coords t) 0
    rw [hi.1, hi.2.2.1]
    show (i 0 : Nat) / 4000 * 4000 ≤ (i 0 : Nat) ∧ (i 0 : Nat) < (i 0 : Nat) / 4000 * 4000 + 4000
    omega
  | ⟨1, _⟩ =>
    show win1_2.index t 1 * 128 ≤ (i 1 : Nat) ∧ (i 1 : Nat) < win1_2.index t 1 * 128 + win1_2.xsize (grid1.coords t) 1
    rw [hi.2.1, hi.2.2.2]
    omega

/-- THE RESULT ARRAY after the region: the projection of the arrays the region finds. -/
theorem final (c : Dev nD) :
    (dat1 (F := Ideal) V c).arrAt 2 cfg1.N = G (V c main_v27) (V c main_v28) :=
  (dat1 (F := Ideal) V c).arrAt_eq_of_cover 2 _ (fun t _ => flushed_eq V c t) (cover)

end Cert.KernelIdeal.Region1

end
-- ==== Proof.Region2.lean ====
/-
  The third region: the output layer's combine, tile by tile, as one function of the arrays it finds.

  Point `t` of 25 reads rows `4000·t … 4000·t + 3999` of the aggregate of projected features, of the hidden
  features and of the reciprocal-degree column, reads the bias row and the root weights whole, and writes back the
  same rows of the result: after the region the result array holds, at `(n, j)`,
  `(∑ q, H (n,q) · Wr (q,j)) + A (n,j) · I (n,0) + B (0,j)`.
-/
import proofs.«116486_j83820581748942_2_alg».proof.Proof.Gen.KernelIdeal.Frame
import proofs.«116486_j83820581748942_2_alg».proof.Proof.Bodies
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Row `4000·t + r` of the 100000 rows: row `r` of the tile of grid point `t`. -/
def row (t : Fin cfg2.N) (r : Fin 4000) : Fin 100000 :=
  ⟨4000 * t.val + r.val, by
    have h : t.val < grid2.N := t.isLt
    have hN : grid2.N = 25 := N_2
    have := r.isLt
    omega⟩

/-- The combine of whole arrays, index by index. -/
def G (A : S100000x128.Idx → EReal) (H : S100000x256.Idx → EReal) (I : S100000x1.Idx → EReal)
    (B : S1x128.Idx → EReal) (Wr : S256x128.Idx → EReal) : S100000x128.Idx → EReal := fun i =>
  (∑ q : Fin 256, H (ix2 (i 0) q) * Wr (ix2 q (i 1))) + A (ix2 (i 0) (i 1)) * I (ix2 (i 0) (0 : Fin 1))
    + B (ix2 (0 : Fin 1) (i 1))

/-- The aggregate's tile at point `t` is rows `4000·t …` of its array. -/
theorem blk0 (c : Dev nD) (t : Fin cfg2.N) (r : Fin 4000) (k : Fin 128) :
    iblk2 (F := Ideal) V c 0 t (ix2 r k) = (V c main_v39 : S100000x128.Idx → EReal) (ix2 (row t r) k) := by
  have hi : win2_0.index t 0 = t.val ∧ win2_0.index t 1 = 0 :=
    (by decide +kernel : ∀ t : Fin grid2.N, win2_0.index t 0 = t.val ∧ win2_0.index t 1 = 0) t
  unfold iblk2
  rw [View.read_apply]
  show V c main_v39 _ = V c main_v39 _
  congr 1
  funext a
  apply Fin.ext
  match a with
  | ⟨0, _⟩ => show win2_0.index t 0 * 4000 + 1 * r.val = 4000 * t.val + r.val; rw [hi.1]; omega
  | ⟨1, _⟩ => show win2_0.index t 1 * 128 + 1 * k.val = k.val; rw [hi.2]; omega

/-- The hidden features' tile at point `t` is rows `4000·t …` of the hidden features. -/
theorem blk1 (c : Dev nD) (t : Fin cfg2.N) (r : Fin 4000) (k : Fin 256) :
    iblk2 (F := Ideal) V c 1 t (ix2 r k) = (V c main_v27 : S100000x256.Idx → EReal) (ix2 (row t r) k) := by
  have hi : win2_1.index t 0 = t.val ∧ win2_1.index t 1 = 0 :=
    (by decide +kernel : ∀ t : Fin grid2.N, win2_1.index t 0 = t.val ∧ win2_1.index t 1 = 0) t
  unfold iblk2
  rw [View.read_apply]
  show V c main_v27 _ = V c main_v27 _
  congr 1
  funext a
  apply Fin.ext
  match a with
  | ⟨0, _⟩ => show win2_1.index t 0 * 4000 + 1 * r.val = 4000 * t.val + r.val; rw [hi.1]; omega
  | ⟨1, _⟩ => show win2_1.index t 1 * 256 + 1 * k.val = k.val; rw [hi.2]; omega

/-- The reciprocal-degree column's tile at point `t` is rows `4000·t …` of the column. -/
theorem blk2 (c : Dev nD) (t : Fin cfg2.N) (r : Fin 4000) (u : Fin 1) :
    iblk2 (F := Ideal) V c 2 t (ix2 r u) = (V c main_v13 : S100000x1.Idx → EReal) (ix2 (row t r) u) := by
  have hi : win2_2.index t 0 = t.val ∧ win2_2.index t 1 = 0 :=
    (by decide +kernel : ∀ t : Fin grid2.N, win2_2.index t 0 = t.val ∧ win2_2.index t 1 = 0) t
  unfold iblk2
  rw [View.read_apply]
  show V c main_v13 _ = V c main_v13 _
  congr 1
  funext a
  apply Fin.ext
  match a with
  | ⟨0, _⟩ => show win2_2.index t 0 * 4000 + 1 * r.val = 4000 * t.val + r.val; rw [hi.1]; omega
  | ⟨1, _⟩ => show win2_2.index t 1 * 1 + 1 * u.val = u.val; rw [hi.2]; omega

/-- The bias row is read whole at every point. -/
theorem blk3 (c : Dev nD) (t : Fin cfg2.N) (a : Fin 1) (b : Fin 128) :
    iblk2 (F := Ideal) V c 3 t (ix2 a b) = (V c main_v41 : S1x128.Idx → EReal) (ix2 a b) := by
  have hi : win2_3.index t 0 = 0 ∧ win2_3.index t 1 = 0 :=
    (by decide +kernel : ∀ t : Fin grid2.N, win2_3.index t 0 = 0 ∧ win2_3.index t 1 = 0) t
  unfold iblk2
  rw [View.read_apply]
  show V c main_v41 _ = V c main_v41 _
  congr 1
  funext x
  apply Fin.ext
  match x with
  | ⟨0, _⟩ => show win2_3.index t 0 * 1 + 1 * a.val = a.val; rw [hi.1]; omega
  | ⟨1, _⟩ => show win2_3.index t 1 * 128 + 1 * b.val = b.val; rw [hi.2]; omega

/-- The root weights are read whole at every point. -/
theorem blk4 (c : Dev nD) (t : Fin cfg2.N) (a : Fin 256) (b : Fin 128) :
    iblk2 (F := Ideal) V c 4 t (ix2 a b) = (V c main_v40 : S256x128.Idx → EReal) (ix2 a b) := by
  have hi : win2_4.index t 0 = 0 ∧ win2_4.index t 1 = 0 :=
    (by decide +kernel : ∀ t : Fin grid2.N, win2_4.index t 0 = 0 ∧ win2_4.index t 1 = 0) t
  unfold iblk2
  rw [View.read_apply]
  show V c main_v40 _ = V c main_v40 _
  congr 1
  funext x
  apply Fin.ext
  match x with
  | ⟨0, _⟩ => show win2_4.index t 0 * 256 + 1 * a.val = a.val; rw [hi.1]; omega
  | ⟨1, _⟩ => show win2_4.index t 1 * 128 + 1 * b.val = b.val; rw [hi.2]; omega

/-- Where the result tile's element `(r, j)` sits in the result array. -/
theorem emb_out (t : Fin cfg2.N) (r : Fin 4000) (j : Fin 128) :
    ((cfg2.win 5).blk t).view.emb (ix2 r j) = (ix2 (row t r) j : S100000x128.Idx) := by
  have hi : win2_5.index t 0 = t.val ∧ win2_5.index t 1 = 0 :=
    (by decide +kernel : ∀ t : Fin grid2.N, win2_5.index t 0 = t.val ∧ win2_5.index t 1 = 0) t
  funext a
  apply Fin.ext
  match a with
  | ⟨0, _⟩ => show win2_5.index t 0 * 4000 + 1 * r.val = 4000 * t.val + r.val; rw [hi.1]; omega
  | ⟨1, _⟩ => show win2_5.index t 1 * 128 + 1 * j.val = j.val; rw [hi.2]; omega

/-- WHAT POINT `t` WRITES BACK is tile `t` of the combine of the arrays the region finds. -/
theorem flushed_eq (c : Dev nD) (t : Fin cfg2.N) :
    (dat2 (F := Ideal) V c).flushed 5 t = ((cfg2.win 5).blk t).view.read (Elt Ideal)
      (G (V c main_v39) (V c main_v27) (V c main_v13) (V c main_v41) (V c main_v40)) := by
  show (cfg2.win 5).cut (grid2.coords t) ((dat2 (F := Ideal) V c).after 5 t) = _
  rw [after2_5]
  unfold out2_5
  rw [View.canon_unit_zero hz]
  simp only [View.ld_unit_zero (S := S4000x128) hz, View.ld_unit_zero (S := S4000x1) hz,
    View.ld_unit_zero (S := S4000x256) hz, View.ld_unit_zero (S := S256x128) hz, View.ld_unit_zero (S := S1x128) hz]
  funext j
  obtain ⟨r, q, rfl⟩ : ∃ (r : Fin 4000) (q : Fin 128), j = ix2 r q := ⟨j 0, j 1, eq_ix2 j⟩
  show k2_pay1 (F := Ideal) (iblk2 V c 0 t) (iblk2 V c 2 t) (iblk2 V c 1 t) (iblk2 V c 4 t) (iblk2 V c 3 t) (ix2 r q)
    = G (V c main_v39) (V c main_v27) (V c main_v13) (V c main_v41) (V c main_v40)
        (((cfg2.win 5).blk t).view.emb (ix2 r q))
  refine (Cert.KernelIdeal.Body.final_apply _ _ _ _ _ r q).trans ?_
  rw [emb_out]
  simp only [blk0, blk1, blk2, blk3, blk4]
  rfl

/-- Every row lies in the tile of point `row / 4000`. -/
theorem cover (i : S100000x128.Idx) :
    ∃ t : Fin cfg2.N, (cfg2.win 5).flush t = true ∧ i ∈ ((cfg2.win 5).blk t).view.set := by
  have h0 : (i 0 : Nat) < 100000 := (i 0).isLt
  have h1 : (i 1 : Nat) < 128 := (i 1).isLt
  let t : Fin cfg2.N := ⟨(i 0 : Nat) / 4000, by rw [show cfg2.N = 25 from N_2]; omega⟩
  have hi : win2_5.index t 0 = t.val ∧ win2_5.index t 1 = 0 ∧ win2_5.xsize (grid2.coords t) 0 = 4000
      ∧ win2_5.xsize (grid2.coords t) 1 = 128 :=
    (by decide +kernel : ∀ t : Fin grid2.N, win2_5.index t 0 = t.val ∧ win2_5.index t 1 = 0
      ∧ win2_5.xsize (grid2.coords t) 0 = 4000 ∧ win2_5.xsize (grid2.coords t) 1 = 128) t
  refine ⟨t, flush2_5 t, ?_⟩
  show i ∈ ((View.whole main_v42).slice (win2_5.rect t)).set
  rw [View.set_slice_whole, Rect.mem_set_unit]
  intro a
  match a with
  | ⟨0, _⟩ =>
    show win2_5.index t 0 * 4000 ≤ (i 0 : Nat) ∧ (i 0 : Nat) < win2_5.index t 0 * 4000 + win2_5.xsize (grid2.coords t) 0
    rw [hi.1, hi.2.2.1]
    show (i 0 : Nat) / 4000 * 4000 ≤ (i 0 : Nat) ∧ (i 0 : Nat) < (i 0 : Nat) / 4000 * 4000 + 4000
    omega
  | ⟨1, _⟩ =>
    show win2_5.index t 1 * 128 ≤ (i 1 : Nat) ∧ (i 1 : Nat) < win2_5.index t 1 * 128 + win2_5.xsize (grid2.coords t) 1
    rw [hi.2.1, hi.2.2.2]
    omega

/-- THE RESULT ARRAY after the region: the combine of the arrays the region finds. -/
theorem final (c : Dev nD) :
    (dat2 (F := Ideal) V c).arrAt 5 cfg2.N
      = G (V c main_v39) (V c main_v27) (V c main_v13) (V c main_v41) (V c main_v40) :=
  (dat2 (F := Ideal) V c).arrAt_eq_of_cover 5 _ (fun t _ => flushed_eq V c t) (cover)

end Cert.KernelIdeal.Region2

end
-- ==== Proof.KRead.lean ====
/-
  The kernel program's value, index by index, as the two layers of the graph convolution.

  With `L n` the edges whose destination word names node `n` and `g e` the node the (normalised, clamped) source word
  of edge `e` names: the host's aggregate of a feature array is `Sage.agg`, the reciprocal-degree column is
  `Sage.inv` at every row (the integer count of ones is the degree), and the three regions' results composed are the
  hidden layer `Sage.hid` and the output layer in its project-first form `Sage.outK`, the weights read transposed and the
  bias vectors read as rows.
-/
import proofs.«116486_j83820581748942_2_alg».proof.Proof.KDefs
import proofs.«116486_j83820581748942_2_alg».proof.Proof.Degree
import proofs.«116486_j83820581748942_2_alg».proof.Proof.LibGatherScatter
import proofs.«116486_j83820581748942_2_alg».proof.Proof.LibKeepdims
import proofs.«116486_j83820581748942_2_alg».proof.Proof.LibMergeRows
import proofs.«116486_j83820581748942_2_alg».proof.Proof.Region0
import proofs.«116486_j83820581748942_2_alg».proof.Proof.Region1
import proofs.«116486_j83820581748942_2_alg».proof.Proof.Region2
import Idealize.ShloMosaic.Lib.IdealHost
import Idealize.ShloMosaic.Lib.ValueIdx

noncomputable section

open scoped BigOperators

namespace Cert.KernelIdeal.K

open Idealize.ShloMosaic Idealize.ShloMosaic.ValueIdx Cert.KernelIdeal Cert.Lib.GatherScatter Cert.Sage

theorem hN : 0 < 100000 := by decide

/-- The edges landing on node `n`. -/
abbrev L (E : IVec S2x800000 32) (n : Fin 100000) : Finset (Fin 800000) := landing 100000 (dstCol E) n

/-- The node edge `e` reads from. -/
abbrev g (E : IVec S2x800000 32) (e : Fin 800000) : Fin 100000 := gatherRow hN (srcCol E) e

/-- The reciprocal of the floored degree of node `n`. -/
abbrev rinv (E : IVec S2x800000 32) (n : Fin 100000) : EReal := Cert.Sage.inv 100000 (dstCol E) n

/-- The host's aggregate at `(n, k)`. -/
theorem aggr_apply (E : IVec S2x800000 32) (X : FVec Ideal S100000x128 .f32) (n : Fin 100000) (k : Fin 128) :
    aggr E X (ix2 n k) = agg (L E) (g E) (fun n k => X (ix2 n k)) n k := by
  unfold aggr aggrW agg
  refine (rowScatterAdd_apply (N := 100000) (C := 128) (R := 800000)
    Facts₀.scatter_S100000x128_S800000x1_S800000x128_1_0_0_1_wf _ (dstCol E) _ n k).trans ?_
  rw [broadcastInDim_scalar_apply, constant_apply, Ideal.ofBits_zero_f32]
  refine congrArg _ (Finset.sum_congr rfl fun e _ => ?_)
  exact rowGather_apply (N := 100000) (C := 128) (R := 800000) hN
    Facts₀.gather_S100000x128_S800000x1_S800000x128_1_0_n_n_0_1_1128_wf X (srcCol E) e k

/-- The integer count at node `n` is the number of edges landing on it. -/
theorem intCount_apply (E : IVec S2x800000 32) (n : Fin 100000) :
    intCount E (ix1 n) = BitVec.ofNat 32 (landing 100000 (dstCol E) n).card := by
  unfold intCount
  have h0 : broadcastInDim S100000 ![] Facts₀.bcast_S_S100000 (constantI S_ 32 0#32) = fun _ => (0#32 : BitVec 32) :=
    funext fun i => broadcastInDim_scalar_apply _ _ i
  have h1 : broadcastInDim S800000 ![] Facts₀.bcast_S_S800000 (constantI S_ 32 1#32) = fun _ => (1#32 : BitVec 32) :=
    funext fun i => broadcastInDim_scalar_apply _ _ i
  rw [h0, h1]
  exact intDeg (N := 100000) (R := 800000) Facts₀.scatter_S100000_S800000x1_S800000_n_0_0_1_wf (dstCol E) n

/-- The reciprocal-degree column at row `n`. -/
theorem invCol_apply (E : IVec S2x800000 32) (n : Fin 100000) (u : Fin 1) : invCol E (ix2 n u) = rinv E n := by
  unfold invCol
  rw [Cert.Lib.Keepdims.col_apply, hostDivf_apply, maximumf_apply, sitofp_apply, broadcastInDim_scalar_apply,
    constant_apply, Ideal.ofBits_one_f32, intCount_apply]
  show Ideal.div 1 (max (((BitVec.ofNat 32 (landing 100000 (dstCol E) n).card).toInt : ℝ) : EReal) 1) = _
  rw [sitofp_intDeg (by norm_num) (dstCol E) n]
  rfl

/-- Output-major weights read through their transpose. -/
abbrev trIn (W : FVec Ideal S256x128 .f32) : FVec Ideal S128x256 .f32 :=
  transpose S128x256 [1, 0] W Facts₀.transposes_S256x128_S128x256_1_0
abbrev trOut (W : FVec Ideal S128x256 .f32) : FVec Ideal S256x128 .f32 :=
  transpose S256x128 [1, 0] W Facts₀.transposes_S128x256_S256x128_1_0
/-- Bias vectors laid out as rows. -/
abbrev rowHid (b : FVec Ideal S256 .f32) : FVec Ideal S1x256 .f32 := shapeCast S1x256 b Facts₀.shapeCasts_S256_S1x256
abbrev rowOut (b : FVec Ideal S128 .f32) : FVec Ideal S1x128 .f32 := shapeCast S1x128 b Facts₀.shapeCasts_S128_S1x128

section Value
variable (X : FVec Ideal S100000x128 .f32) (E : IVec S2x800000 32) (W1l : FVec Ideal S256x128 .f32)
  (b1 : FVec Ideal S256 .f32) (W1r : FVec Ideal S256x128 .f32) (W2l : FVec Ideal S128x256 .f32)
  (b2 : FVec Ideal S128 .f32) (W2r : FVec Ideal S128x256 .f32)

/-- The hidden features the first region leaves. -/
def hidArr : S100000x256.Idx → EReal :=
  Region0.G (aggr E X) X (invCol E) (trIn W1l) (rowHid b1) (trIn W1r)

/-- The projected features the second region leaves. -/
def projArr : S100000x128.Idx → EReal := Region1.G (hidArr X E W1l b1 W1r) (trOut W2l)

/-- The result the third region leaves. -/
def outArr : S100000x128.Idx → EReal :=
  Region2.G (aggr E (projArr X E W1l b1 W1r W2l)) (hidArr X E W1l b1 W1r) (invCol E) (rowOut b2) (trOut W2r)

/-- The hidden layer, as the convolution's first layer. -/
def hidS (n : Fin 100000) (q : Fin 256) : EReal :=
  hid (L E) (g E) (rinv E) (fun n k => X (ix2 n k)) (fun q k => W1l (ix2 q k)) (fun q k => W1r (ix2 q k))
    (fun q => b1 (ix1 q)) n q

theorem hidArr_apply (n : Fin 100000) (q : Fin 256) : hidArr X E W1l b1 W1r (ix2 n q) = hidS X E W1l b1 W1r n q := by
  unfold hidArr hidS Region0.G hid lin mean
  show max ((∑ k : Fin 128, (aggr E X (ix2 n k) * invCol E (ix2 n (0 : Fin 1))) * trIn W1l (ix2 k q))
    + (∑ k : Fin 128, X (ix2 n k) * trIn W1r (ix2 k q)) + rowHid b1 (ix2 (0 : Fin 1) q)) 0 = _
  simp only [aggr_apply, invCol_apply, Cert.Lib.MergeRows.transpose_apply, Cert.Lib.MergeRows.row_apply]

theorem projArr_apply (n : Fin 100000) (j : Fin 128) :
    projArr X E W1l b1 W1r W2l (ix2 n j) = lin (hidS X E W1l b1 W1r) (fun j q => W2l (ix2 j q)) n j := by
  unfold projArr Region1.G lin
  show (∑ q : Fin 256, hidArr X E W1l b1 W1r (ix2 n q) * trOut W2l (ix2 q j)) = _
  simp only [hidArr_apply, Cert.Lib.MergeRows.transpose_apply]

/-- THE KERNEL'S RESULT at `(n, j)`: the output layer, projecting before aggregating. -/
theorem outArr_apply (n : Fin 100000) (j : Fin 128) :
    outArr X E W1l b1 W1r W2l b2 W2r (ix2 n j)
      = outK (L E) (g E) (rinv E) (hidS X E W1l b1 W1r) (fun j q => W2l (ix2 j q)) (fun j q => W2r (ix2 j q))
          (fun j => b2 (ix1 j)) n j := by
  unfold outArr Region2.G outK lin mean
  show (∑ q : Fin 256, hidArr X E W1l b1 W1r (ix2 n q) * trOut W2r (ix2 q j))
    + aggr E (projArr X E W1l b1 W1r W2l) (ix2 n j) * invCol E (ix2 n (0 : Fin 1)) + rowOut b2 (ix2 (0 : Fin 1) j) = _
  simp only [aggr_apply, invCol_apply, hidArr_apply, projArr_apply, Cert.Lib.MergeRows.transpose_apply,
    Cert.Lib.MergeRows.row_apply]
  rfl

end Value

end Cert.KernelIdeal.K

end
-- ==== Proof.KValue.lean ====
/-
  The kernel program's result buffer after the run, as the value of `KRead.lean` at the argument arrays.

  The buffer contents at each boundary of @main are a fold: host operations, a region, host operations, a region, host
  operations, a region. Walking it back from the result: the third region leaves the combine of what it finds; of those
  five arrays the aggregate, the bias row and the root weights are written by the third stretch of host operations (from
  the projected features the second region left and from the word vectors and arguments, which nothing in between
  writes), and the hidden features and the reciprocal-degree column were left by the first region and the first
  stretch and are only read afterwards; the second region leaves the projection of the hidden features by the weights
  the second stretch transposed; the first region leaves the hidden layer of what the first stretch computed.
-/
import proofs.«116486_j83820581748942_2_alg».proof.Proof.Gen.KernelIdeal.Frame
import proofs.«116486_j83820581748942_2_alg».proof.Proof.KRead

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.K

variable (m : (ℓ : Loc nD τ sig) → Buf (Elt Ideal) ℓ) (ρ : Dev nD → PrngReg)

/-- The argument arrays at launch. -/
abbrev aX (c : Dev nD) : FVec Ideal S100000x128 .f32 := m ((c : Thread nD τ).loc main_arg0)
abbrev aE (c : Dev nD) : IVec S2x800000 32 := m ((c : Thread nD τ).loc main_arg1)
abbrev aW1l (c : Dev nD) : FVec Ideal S256x128 .f32 := m ((c : Thread nD τ).loc main_arg2)
abbrev ab1 (c : Dev nD) : FVec Ideal S256 .f32 := m ((c : Thread nD τ).loc main_arg3)
abbrev aW1r (c : Dev nD) : FVec Ideal S256x128 .f32 := m ((c : Thread nD τ).loc main_arg4)
abbrev aW2l (c : Dev nD) : FVec Ideal S128x256 .f32 := m ((c : Thread nD τ).loc main_arg5)
abbrev ab2 (c : Dev nD) : FVec Ideal S128 .f32 := m ((c : Thread nD τ).loc main_arg6)
abbrev aW2r (c : Dev nD) : FVec Ideal S128x256 .f32 := m ((c : Thread nD τ).loc main_arg7)

/-! ## After the first stretch of host operations -/

theorem W1_v1 (c : Dev nD) : W1 m ρ c (Proc.devRef .tc main_v1) = srcw (aE m c) := by
  show StableHlo.after hostOps0 (W0 m ρ c) (Proc.devRef .tc main_v1) = _
  after_results_simp <;> rfl

theorem W1_v3 (c : Dev nD) : W1 m ρ c (Proc.devRef .tc main_v3) = dstw (aE m c) := by
  show StableHlo.after hostOps0 (W0 m ρ c) (Proc.devRef .tc main_v3) = _
  after_results_simp <;> rfl

theorem W1_v13 (c : Dev nD) : W1 m ρ c (Proc.devRef .tc main_v13) = invCol (aE m c) := by
  show StableHlo.after hostOps0 (W0 m ρ c) (Proc.devRef .tc main_v13) = _
  after_results_simp <;> rfl

theorem W1_v23 (c : Dev nD) : W1 m ρ c (Proc.devRef .tc main_v23) = aggr (aE m c) (aX m c) := by
  show StableHlo.after hostOps0 (W0 m ρ c) (Proc.devRef .tc main_v23) = _
  after_results_simp <;> rfl

theorem W1_v24 (c : Dev nD) : W1 m ρ c (Proc.devRef .tc main_v24) = trIn (aW1l m c) := by
  show StableHlo.after hostOps0 (W0 m ρ c) (Proc.devRef .tc main_v24) = _
  after_results_simp <;> rfl

theorem W1_v25 (c : Dev nD) : W1 m ρ c (Proc.devRef .tc main_v25) = trIn (aW1r m c) := by
  show StableHlo.after hostOps0 (W0 m ρ c) (Proc.devRef .tc main_v25) = _
  after_results_simp <;> rfl

theorem W1_v26 (c : Dev nD) : W1 m ρ c (Proc.devRef .tc main_v26) = rowHid (ab1 m c) := by
  show StableHlo.after hostOps0 (W0 m ρ c) (Proc.devRef .tc main_v26) = _
  after_results_simp <;> rfl

theorem W1_arg0 (c : Dev nD) : W1 m ρ c (Proc.devRef .tc main_arg0) = aX m c := by
  show StableHlo.after hostOps0 (W0 m ρ c) (Proc.devRef .tc main_arg0) = _
  after_results_simp <;> rfl

theorem W1_arg5 (c : Dev nD) : W1 m ρ c (Proc.devRef .tc main_arg5) = aW2l m c := by
  show StableHlo.after hostOps0 (W0 m ρ c) (Proc.devRef .tc main_arg5) = _
  after_results_simp <;> rfl

theorem W1_arg6 (c : Dev nD) : W1 m ρ c (Proc.devRef .tc main_arg6) = ab2 m c := by
  show StableHlo.after hostOps0 (W0 m ρ c) (Proc.devRef .tc main_arg6) = _
  after_results_simp <;> rfl

theorem W1_arg7 (c : Dev nD) : W1 m ρ c (Proc.devRef .tc main_arg7) = aW2r m c := by
  show StableHlo.after hostOps0 (W0 m ρ c) (Proc.devRef .tc main_arg7) = _
  after_results_simp <;> rfl

/-! ## After the first region -/

/-- The first region leaves the hidden features. -/
theorem W2_v27 (c : Dev nD) :
    W2 m ρ c (Proc.devRef .tc main_v27) = hidArr (aX m c) (aE m c) (aW1l m c) (ab1 m c) (aW1r m c) := by
  refine (W2_arr m ρ c 6).trans ((Region0.final (V1 m ρ) c).trans ?_)
  show Region0.G (W1 m ρ c (Proc.devRef .tc main_v23)) (W1 m ρ c (Proc.devRef .tc main_arg0))
    (W1 m ρ c (Proc.devRef .tc main_v13)) (W1 m ρ c (Proc.devRef .tc main_v24)) (W1 m ρ c (Proc.devRef .tc main_v26))
    (W1 m ρ c (Proc.devRef .tc main_v25)) = _
  rw [W1_v23, W1_arg0, W1_v13, W1_v24, W1_v26, W1_v25]
  rfl

theorem W2_v1 (c : Dev nD) : W2 m ρ c (Proc.devRef .tc main_v1) = srcw (aE m c) :=
  (W2_of_ne m ρ c main_v1 (by decide)).trans (W1_v1 m ρ c)

theorem W2_v3 (c : Dev nD) : W2 m ρ c (Proc.devRef .tc main_v3) = dstw (aE m c) :=
  (W2_of_ne m ρ c main_v3 (by decide)).trans (W1_v3 m ρ c)

/-- The reciprocal-degree column is an input of the first region: it leaves it as it found it. -/
theorem W2_v13 (c : Dev nD) : W2 m ρ c (Proc.devRef .tc main_v13) = invCol (aE m c) :=
  ((W2_arr m ρ c 2).trans (((dat0 (V1 m ρ) c).arrAt_in 2 rfl _).trans (A_eq0 (V1 m ρ) c 2))).trans (W1_v13 m ρ c)

theorem W2_arg5 (c : Dev nD) : W2 m ρ c (Proc.devRef .tc main_arg5) = aW2l m c :=
  (W2_of_ne m ρ c main_arg5 (by decide)).trans (W1_arg5 m ρ c)

theorem W2_arg6 (c : Dev nD) : W2 m ρ c (Proc.devRef .tc main_arg6) = ab2 m c :=
  (W2_of_ne m ρ c main_arg6 (by decide)).trans (W1_arg6 m ρ c)

theorem W2_arg7 (c : Dev nD) : W2 m ρ c (Proc.devRef .tc main_arg7) = aW2r m c :=
  (W2_of_ne m ρ c main_arg7 (by decide)).trans (W1_arg7 m ρ c)

/-! ## After the second stretch (one transpose) -/

theorem W3_v28 (c : Dev nD) : W3 m ρ c (Proc.devRef .tc main_v28) = trOut (aW2l m c) := by
  show StableHlo.after hostOps1 (W2 m ρ c) (Proc.devRef .tc main_v28) = _
  after_results_simp
  rw [W2_arg5]

theorem W3_v27 (c : Dev nD) :
    W3 m ρ c (Proc.devRef .tc main_v27) = hidArr (aX m c) (aE m c) (aW1l m c) (ab1 m c) (aW1r m c) := by
  show StableHlo.after hostOps1 (W2 m ρ c) (Proc.devRef .tc main_v27) = _
  after_results_simp
  exact W2_v27 m ρ c

theorem W3_v1 (c : Dev nD) : W3 m ρ c (Proc.devRef .tc main_v1) = srcw (aE m c) := by
  show StableHlo.after hostOps1 (W2 m ρ c) (Proc.devRef .tc main_v1) = _
  after_results_simp
  exact W2_v1 m ρ c

theorem W3_v3 (c : Dev nD) : W3 m ρ c (Proc.devRef .tc main_v3) = dstw (aE m c) := by
  show StableHlo.after hostOps1 (W2 m ρ c) (Proc.devRef .tc main_v3) = _
  after_results_simp
  exact W2_v3 m ρ c

theorem W3_v13 (c : Dev nD) : W3 m ρ c (Proc.devRef .tc main_v13) = invCol (aE m c) := by
  show StableHlo.after hostOps1 (W2 m ρ c) (Proc.devRef .tc main_v13) = _
  after_results_simp
  exact W2_v13 m ρ c

theorem W3_arg6 (c : Dev nD) : W3 m ρ c (Proc.devRef .tc main_arg6) = ab2 m c := by
  show StableHlo.after hostOps1 (W2 m ρ c) (Proc.devRef .tc main_arg6) = _
  after_results_simp
  exact W2_arg6 m ρ c

theorem W3_arg7 (c : Dev nD) : W3 m ρ c (Proc.devRef .tc main_arg7) = aW2r m c := by
  show StableHlo.after hostOps1 (W2 m ρ c) (Proc.devRef .tc main_arg7) = _
  after_results_simp
  exact W2_arg7 m ρ c

/-! ## After the second region -/

/-- The second region leaves the projected features. -/
theorem W4_v29 (c : Dev nD) :
    W4 m ρ c (Proc.devRef .tc main_v29) = projArr (aX m c) (aE m c) (aW1l m c) (ab1 m c) (aW1r m c) (aW2l m c) := by
  refine (W4_arr m ρ c 2).trans ((Region1.final (V3 m ρ) c).trans ?_)
  show Region1.G (W3 m ρ c (Proc.devRef .tc main_v27)) (W3 m ρ c (Proc.devRef .tc main_v28)) = _
  rw [W3_v27, W3_v28]
  rfl

/-- The hidden features are an input of the second region: it leaves them as it found them. -/
theorem W4_v27 (c : Dev nD) :
    W4 m ρ c (Proc.devRef .tc main_v27) = hidArr (aX m c) (aE m c) (aW1l m c) (ab1 m c) (aW1r m c) :=
  ((W4_arr m ρ c 0).trans (((dat1 (V3 m ρ) c).arrAt_in 0 rfl _).trans (A_eq1 (V3 m ρ) c 0))).trans (W3_v27 m ρ c)

theorem W4_v1 (c : Dev nD) : W4 m ρ c (Proc.devRef .tc main_v1) = srcw (aE m c) :=
  (W4_of_ne m ρ c main_v1 (by decide)).trans (W3_v1 m ρ c)

theorem W4_v3 (c : Dev nD) : W4 m ρ c (Proc.devRef .tc main_v3) = dstw (aE m c) :=
  (W4_of_ne m ρ c main_v3 (by decide)).trans (W3_v3 m ρ c)

theorem W4_v13 (c : Dev nD) : W4 m ρ c (Proc.devRef .tc main_v13) = invCol (aE m c) :=
  (W4_of_ne m ρ c main_v13 (by decide)).trans (W3_v13 m ρ c)

theorem W4_arg6 (c : Dev nD) : W4 m ρ c (Proc.devRef .tc main_arg6) = ab2 m c :=
  (W4_of_ne m ρ c main_arg6 (by decide)).trans (W3_arg6 m ρ c)

theorem W4_arg7 (c : Dev nD) : W4 m ρ c (Proc.devRef .tc main_arg7) = aW2r m c :=
  (W4_of_ne m ρ c main_arg7 (by decide)).trans (W3_arg7 m ρ c)

/-! ## After the third stretch -/

/-- The aggregate of the projected features. -/
theorem W5_v39 (c : Dev nD) : W5 m ρ c (Proc.devRef .tc main_v39)
    = aggr (aE m c) (projArr (aX m c) (aE m c) (aW1l m c) (ab1 m c) (aW1r m c) (aW2l m c)) := by
  show StableHlo.after hostOps2 (W4 m ρ c) (Proc.devRef .tc main_v39) = _
  after_results_simp
  rw [W4_v1, W4_v3, W4_v29]
  rfl

theorem W5_v40 (c : Dev nD) : W5 m ρ c (Proc.devRef .tc main_v40) = trOut (aW2r m c) := by
  show StableHlo.after hostOps2 (W4 m ρ c) (Proc.devRef .tc main_v40) = _
  after_results_simp
  rw [W4_arg7]

theorem W5_v41 (c : Dev nD) : W5 m ρ c (Proc.devRef .tc main_v41) = rowOut (ab2 m c) := by
  show StableHlo.after hostOps2 (W4 m ρ c) (Proc.devRef .tc main_v41) = _
  after_results_simp
  rw [W4_arg6]
  rfl

theorem W5_v27 (c : Dev nD) :
    W5 m ρ c (Proc.devRef .tc main_v27) = hidArr (aX m c) (aE m c) (aW1l m c) (ab1 m c) (aW1r m c) := by
  show StableHlo.after hostOps2 (W4 m ρ c) (Proc.devRef .tc main_v27) = _
  after_results_simp
  exact W4_v27 m ρ c

theorem W5_v13 (c : Dev nD) : W5 m ρ c (Proc.devRef .tc main_v13) = invCol (aE m c) := by
  show StableHlo.after hostOps2 (W4 m ρ c) (Proc.devRef .tc main_v13) = _
  after_results_simp
  exact W4_v13 m ρ c

/-! ## After the third region -/

/-- THE RESULT BUFFER after the run: the value of the two layers at the argument arrays. -/
theorem W6_v42 (c : Dev nD) : W6 m ρ c (Proc.devRef .tc main_v42)
    = outArr (aX m c) (aE m c) (aW1l m c) (ab1 m c) (aW1r m c) (aW2l m c) (ab2 m c) (aW2r m c) := by
  refine (W6_arr m ρ c 5).trans ((Region2.final (V5 m ρ) c).trans ?_)
  show Region2.G (W5 m ρ c (Proc.devRef .tc main_v39)) (W5 m ρ c (Proc.devRef .tc main_v27))
    (W5 m ρ c (Proc.devRef .tc main_v13)) (W5 m ρ c (Proc.devRef .tc main_v41)) (W5 m ρ c (Proc.devRef .tc main_v40)) = _
  rw [W5_v39, W5_v27, W5_v13, W5_v41, W5_v40]
  rfl

end Cert.KernelIdeal.KValue

end
-- ==== Proof.RefRead.lean ====
/-
  The reference program's value, index by index, as the two layers of the graph convolution.

  With `L n` the edges whose destination word names node `n` and `g e` the node the source word of edge `e` names:
  the accumulation of ones is the degree, so the divisor the reference broadcasts is the degree floored at one; dividing
  an aggregate by it is multiplying by its reciprocal (the divisor is not zero), which makes the reference's mean
  `Sage.mean`; its hidden layer is `Sage.hid` (the three summands in another order) and its result the output layer in
  its aggregate-first form `Sage.outR`.
-/
import proofs.«116486_j83820581748942_2_alg».proof.Proof.Gen.ReferenceIdeal.Read
import proofs.«116486_j83820581748942_2_alg».proof.Proof.Degree
import proofs.«116486_j83820581748942_2_alg».proof.Proof.LibGatherScatter
import proofs.«116486_j83820581748942_2_alg».proof.Proof.LibVecScatter
import proofs.«116486_j83820581748942_2_alg».proof.Proof.LibPlainDot
import proofs.«116486_j83820581748942_2_alg».proof.Proof.LibRowBroadcasts
import proofs.«116486_j83820581748942_2_alg».proof.Proof.LibMergeRows
import Idealize.ShloMosaic.Lib.IdealHost
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read
open Cert.Lib.GatherScatter Cert.Sage

theorem hN : 0 < 100000 := by decide

/-- The destination column and the (normalised) source column of the edge array. -/
abbrev dcol (E : IVec S2x800000 32) : IVec S800000x1 32 := val_main_v12 (F := Ideal) E
abbrev scol (E : IVec S2x800000 32) : IVec S800000x1 32 := val_main_v9 (F := Ideal) E

/-- The edges landing on node `n`, the node edge `e` reads from, the reciprocal of the floored degree. -/
abbrev L (E : IVec S2x800000 32) (n : Fin 100000) : Finset (Fin 800000) := landing 100000 (dcol E) n
abbrev g (E : IVec S2x800000 32) (e : Fin 800000) : Fin 100000 := gatherRow hN (scol E) e
abbrev rinv (E : IVec S2x800000 32) (n : Fin 100000) : EReal := Cert.Sage.inv 100000 (dcol E) n

/-- The program spells the two columns again where it uses them again. -/
theorem v16_eq (E : IVec S2x800000 32) : val_main_v16 (F := Ideal) E = dcol E := rfl
theorem v40_eq (E : IVec S2x800000 32) : val_main_v40 (F := Ideal) E = dcol E := rfl
theorem v44_eq (E : IVec S2x800000 32) : val_main_v44 (F := Ideal) E = dcol E := rfl
theorem v37_eq (E : IVec S2x800000 32) : val_main_v37 (F := Ideal) E = scol E := rfl

/-- The aggregate of a 128-channel feature array at `(n, k)`. -/
theorem agg128 (X : FVec Ideal S100000x128 .f32) (dc sc : IVec S800000x1 32) (n : Fin 100000) (k : Fin 128) :
    Host.scatterAdd scatter_S100000x128_S800000x1_S800000x128_1_0_0_1 (val_main_v11 (F := Ideal)) dc
        (Host.gather gather_S100000x128_S800000x1_S800000x128_1_0_n_n_0_1_1128 X sc) (ix2 n k)
      = agg (fun n => landing 100000 dc n) (fun e => gatherRow hN sc e) (fun n k => X (ix2 n k)) n k := by
  unfold agg val_main_v11 val_main_cst
  refine (rowScatterAdd_apply (N := 100000) (C := 128) (R := 800000)
    Facts₀.scatter_S100000x128_S800000x1_S800000x128_1_0_0_1_wf _ dc _ n k).trans ?_
  rw [broadcastInDim_scalar_apply, constant_apply, Ideal.ofBits_zero_f32]
  refine congrArg _ (Finset.sum_congr rfl fun e _ => ?_)
  exact rowGather_apply (N := 100000) (C := 128) (R := 800000) hN
    Facts₀.gather_S100000x128_S800000x1_S800000x128_1_0_n_n_0_1_1128_wf X sc e k

/-- The aggregate of a 256-channel feature array at `(n, q)`. -/
theorem agg256 (Hh : FVec Ideal S100000x256 .f32) (dc sc : IVec S800000x1 32) (n : Fin 100000) (q : Fin 256) :
    Host.scatterAdd scatter_S100000x256_S800000x1_S800000x256_1_0_0_1 (val_main_v39 (F := Ideal)) dc
        (Host.gather gather_S100000x256_S800000x1_S800000x256_1_0_n_n_0_1_1256 Hh sc) (ix2 n q)
      = agg (fun n => landing 100000 dc n) (fun e => gatherRow hN sc e) (fun n q => Hh (ix2 n q)) n q := by
  unfold agg val_main_v39 val_main_cst_6
  refine (rowScatterAdd_apply (N := 100000) (C := 256) (R := 800000)
    Facts₀.scatter_S100000x256_S800000x1_S800000x256_1_0_0_1_wf _ dc _ n q).trans ?_
  rw [broadcastInDim_scalar_apply, constant_apply, Ideal.ofBits_zero_f32]
  refine congrArg _ (Finset.sum_congr rfl fun e _ => ?_)
  exact rowGather_apply (N := 100000) (C := 256) (R := 800000) hN
    Facts₀.gather_S100000x256_S800000x1_S800000x256_1_0_n_n_0_1_1256_wf Hh sc e q

/-- The first layer's divisor at node `n`: the degree floored at one. -/
theorem den19 (E : IVec S2x800000 32) (n : Fin 100000) : val_main_v19 (F := Ideal) E (ix1 n) = den 100000 (dcol E) n := by
  unfold val_main_v19 val_main_v17 val_main_v18 val_main_v15 val_main_v14 val_main_cst_1 val_main_cst_2 val_main_cst_3
  rw [maximumf_apply, v16_eq]
  unfold den deg
  refine congrArg₂ max ?_ ?_
  · refine (vecScatterAdd_apply (N := 100000) (R := 800000) Facts₀.scatter_S100000_S800000x1_S800000_n_0_0_1_wf _
      (dcol E) _ n).trans ?_
    have h0 : broadcastInDim S100000 ![] Facts₀.bcast_S_S100000 (constant (F := Ideal) S_ .f32 0x00000000#32)
        = fun _ => (0 : EReal) :=
      funext fun i => by rw [broadcastInDim_scalar_apply, constant_apply, Ideal.ofBits_zero_f32]
    have h1 : broadcastInDim S800000 ![] Facts₀.bcast_S_S800000 (constant (F := Ideal) S_ .f32 0x3F800000#32)
        = fun _ => (1 : EReal) :=
      funext fun i => by rw [broadcastInDim_scalar_apply, constant_apply, Ideal.ofBits_one_f32]
    rw [h0, h1]
    rfl
  · rw [broadcastInDim_scalar_apply, constant_apply, Ideal.ofBits_one_f32]

/-- The second layer's divisor at node `n`: the same. -/
theorem den47 (E : IVec S2x800000 32) (n : Fin 100000) : val_main_v47 (F := Ideal) E (ix1 n) = den 100000 (dcol E) n := by
  unfold val_main_v47 val_main_v45 val_main_v46 val_main_v43 val_main_v42 val_main_cst_7 val_main_cst_8 val_main_cst_9
  rw [maximumf_apply, v44_eq]
  unfold den deg
  refine congrArg₂ max ?_ ?_
  · refine (vecScatterAdd_apply (N := 100000) (R := 800000) Facts₀.scatter_S100000_S800000x1_S800000_n_0_0_1_wf _
      (dcol E) _ n).trans ?_
    have h0 : broadcastInDim S100000 ![] Facts₀.bcast_S_S100000 (constant (F := Ideal) S_ .f32 0x00000000#32)
        = fun _ => (0 : EReal) :=
      funext fun i => by rw [broadcastInDim_scalar_apply, constant_apply, Ideal.ofBits_zero_f32]
    have h1 : broadcastInDim S800000 ![] Facts₀.bcast_S_S800000 (constant (F := Ideal) S_ .f32 0x3F800000#32)
        = fun _ => (1 : EReal) :=
      funext fun i => by rw [broadcastInDim_scalar_apply, constant_apply, Ideal.ofBits_one_f32]
    rw [h0, h1]
    rfl
  · rw [broadcastInDim_scalar_apply, constant_apply, Ideal.ofBits_one_f32]

/-- The first layer's mean at `(n, k)`. -/
theorem mean1_apply (X : FVec Ideal S100000x128 .f32) (E : IVec S2x800000 32) (n : Fin 100000) (k : Fin 128) :
    val_main_v22 (F := Ideal) X E (ix2 n k) = mean (L E) (g E) (rinv E) (fun n k => X (ix2 n k)) n k := by
  unfold val_main_v22 val_main_v13 val_main_v10 val_main_v21 val_main_v20
  rw [hostDivf_apply, agg128, Cert.Lib.Rows.dimCol_apply, column_apply, den19, div_den] <;> rfl

/-- A bias vector laid out as a `1 × b` row reads, at `(·, q)`, the vector at `q`. -/
theorem biasRow_apply {b : Nat} (v : (⟨1, ![b]⟩ : Shape).Idx → EReal)
    (hb : (⟨1, ![b]⟩ : Shape).BroadcastsInDim ⟨2, ![1, b]⟩ ![1]) (u : Fin 1) (q : Fin b) :
    broadcastInDim ⟨2, ![1, b]⟩ ![1] hb v (ix2 u q) = v (ix1 q) :=
  broadcastInDim_apply _ hb v (ix2 u q) (ix1 q) fun ax => by
    match ax with
    | ⟨0, _⟩ =>
      show q.val = if b = 1 then 0 else q.val
      split
      · have := q.isLt; omega
      · rfl

/-- The 100000×128 by 128×256 product at `(n, q)`. -/
theorem dg_in (l : FVec Ideal S100000x128 .f32) (w : FVec Ideal S128x256 .f32) (n : Fin 100000) (q : Fin 256) :
    Host.dotGeneral dot_S100000x128_S128x256_S100000x256_1_0_0_1_n_n none l w (ix2 n q)
      = ∑ k : Fin 128, l (ix2 n k) * w (ix2 k q) :=
  Cert.Lib.PlainDot.dotGeneral_apply (a := 100000) (c := 128) (b := 256)
    Facts₀.dot_S100000x128_S128x256_S100000x256_1_0_0_1_n_n_wf none l w n q

/-- The 100000×256 by 256×128 product at `(n, j)`. -/
theorem dg_out (l : FVec Ideal S100000x256 .f32) (w : FVec Ideal S256x128 .f32) (n : Fin 100000) (j : Fin 128) :
    Host.dotGeneral dot_S100000x256_S256x128_S100000x128_1_0_0_1_n_n none l w (ix2 n j)
      = ∑ q : Fin 256, l (ix2 n q) * w (ix2 q j) :=
  Cert.Lib.PlainDot.dotGeneral_apply (a := 100000) (c := 256) (b := 128)
    Facts₀.dot_S100000x256_S256x128_S100000x128_1_0_0_1_n_n_wf none l w n j

section Value
variable (X : FVec Ideal S100000x128 .f32) (E : IVec S2x800000 32) (W1l : FVec Ideal S256x128 .f32)
  (b1 : FVec Ideal S256 .f32) (W1r : FVec Ideal S256x128 .f32) (W2l : FVec Ideal S128x256 .f32)
  (b2 : FVec Ideal S128 .f32) (W2r : FVec Ideal S128x256 .f32)

/-- The reference's hidden layer at `(n, q)`. -/
theorem hid_apply (n : Fin 100000) (q : Fin 256) :
    val_main_v31 (F := Ideal) X E W1l b1 W1r (ix2 n q)
      = hid (L E) (g E) (rinv E) (fun n k => X (ix2 n k)) (fun q k => W1l (ix2 q k)) (fun q k => W1r (ix2 q k))
          (fun q => b1 (ix1 q)) n q := by
  unfold val_main_v31 val_main_call0_v0 val_main_call0_cst val_main_v30 val_main_v29 val_main_v28 val_main_v27
    val_main_v26 val_main_v25 val_main_v24 val_main_v23
  rw [maximumf_apply, addf_apply, addf_apply, dg_in, dg_in, broadcastInDim_scalar_apply, constant_apply,
    Ideal.ofBits_zero_f32, Cert.Lib.Rows.dimRow_apply, biasRow_apply]
  simp only [mean1_apply]
  unfold hid lin
  rw [add_right_comm]
  refine congrArg₂ max (congrArg₂ (· + ·) (congrArg₂ (· + ·) (Finset.sum_congr rfl fun k _ => ?_)
    (Finset.sum_congr rfl fun k _ => ?_)) rfl) rfl
  · rw [Cert.Lib.MergeRows.transpose_apply]
  · rw [Cert.Lib.MergeRows.transpose_apply]

/-- The second layer's mean at `(n, q)`. -/
theorem mean2_apply (n : Fin 100000) (q : Fin 256) :
    val_main_v50 (F := Ideal) X E W1l b1 W1r (ix2 n q)
      = mean (L E) (g E) (rinv E) (fun n q => val_main_v31 (F := Ideal) X E W1l b1 W1r (ix2 n q)) n q := by
  unfold val_main_v50 val_main_v41 val_main_v38 val_main_v49 val_main_v48
  rw [hostDivf_apply, v40_eq, v37_eq, agg256, Cert.Lib.Rows.dimCol_apply, column_apply, den47, div_den] <;> rfl

/-- THE REFERENCE'S RESULT at `(n, j)`: the output layer, aggregating before projecting. -/
theorem out_apply (n : Fin 100000) (j : Fin 128) :
    val_main_v58 (F := Ideal) X E W1l b1 W1r W2l b2 W2r (ix2 n j)
      = outR (L E) (g E) (rinv E) (fun n q => val_main_v31 (F := Ideal) X E W1l b1 W1r (ix2 n q))
          (fun j q => W2l (ix2 j q)) (fun j q => W2r (ix2 j q)) (fun j => b2 (ix1 j)) n j := by
  unfold val_main_v58 val_main_v57 val_main_v56 val_main_v55 val_main_v54 val_main_v53 val_main_v52 val_main_v51
  rw [addf_apply, addf_apply, dg_out, dg_out, Cert.Lib.Rows.dimRow_apply, biasRow_apply]
  simp only [mean2_apply]
  unfold outR lin
  refine congrArg₂ (· + ·) (congrArg₂ (· + ·) (Finset.sum_congr rfl fun q _ => ?_) rfl)
    (Finset.sum_congr rfl fun q _ => ?_)
  · rw [Cert.Lib.MergeRows.transpose_apply]
  · rw [Cert.Lib.MergeRows.transpose_apply]

end Value

end Cert.ReferenceIdeal.RefValue

end
-- ==== Proof.Bridge.lean ====
/-
  The two programs compute one array, on real data.

  Both programs build the same destination column and the same normalised source column from the edge words, so the
  edges landing on a node, the node an edge reads from and the reciprocal of the floored degree are the same on both
  sides. The reference's hidden layer is then the kernel's. The output layers differ only in projecting before or after
  aggregating; when every argument entry is a real number, every hidden feature is real and so is every reciprocal,
  and the two orders agree (`Sage.outK_eq_outR`).
-/
import proofs.«116486_j83820581748942_2_alg».proof.Proof.KRead
import proofs.«116486_j83820581748942_2_alg».proof.Proof.RefRead
import proofs.«116486_j83820581748942_2_alg».proof.Proof.SageLaw
import proofs.«116486_j83820581748942_2_alg».proof.Proof.Degree

noncomputable section

namespace Cert.Bridge

open Idealize.ShloMosaic Idealize.ShloMosaic.ValueIdx Cert.Sage
open Cert.KernelIdeal (S100000x128 S2x800000 S256x128 S256 S128x256 S128)

variable (X : FVec Ideal S100000x128 .f32) (E : IVec S2x800000 32) (W1l : FVec Ideal S256x128 .f32)
  (b1 : FVec Ideal S256 .f32) (W1r : FVec Ideal S256x128 .f32) (W2l : FVec Ideal S128x256 .f32)
  (b2 : FVec Ideal S128 .f32) (W2r : FVec Ideal S128x256 .f32)

/-- The two programs' destination columns are one array. -/
theorem dcol_eq : Cert.ReferenceIdeal.RefValue.dcol E = Cert.KernelIdeal.K.dstCol E := rfl

/-- The two programs' source columns are one array. -/
theorem scol_eq : Cert.ReferenceIdeal.RefValue.scol E = Cert.KernelIdeal.K.srcCol E := rfl

/-- The reference's hidden layer is the kernel's. -/
theorem hid_eq : (fun (n : Fin 100000) (q : Fin 256) =>
      Cert.ReferenceIdeal.Read.val_main_v31 (F := Ideal) X E W1l b1 W1r (ix2 n q))
    = Cert.KernelIdeal.K.hidS X E W1l b1 W1r := by
  funext n q
  rw [Cert.ReferenceIdeal.RefValue.hid_apply]
  rfl

/-- THE TWO RESULTS AGREE, index by index, when every argument entry is a real number. -/
theorem out_eq (hX : ∀ i, IsReal (X i)) (hW1l : ∀ i, IsReal (W1l i)) (hb1 : ∀ i, IsReal (b1 i))
    (hW1r : ∀ i, IsReal (W1r i)) (hW2l : ∀ i, IsReal (W2l i)) :
    Cert.KernelIdeal.K.outArr X E W1l b1 W1r W2l b2 W2r
      = Cert.ReferenceIdeal.Read.val_main_v58 (F := Ideal) X E W1l b1 W1r W2l b2 W2r := by
  funext i
  obtain ⟨n, j, rfl⟩ : ∃ (n : Fin 100000) (j : Fin 128), i = ix2 n j := ⟨i 0, i 1, eq_ix2 i⟩
  rw [Cert.KernelIdeal.K.outArr_apply, Cert.ReferenceIdeal.RefValue.out_apply, hid_eq]
  have hinv : ∀ n, IsReal (Cert.KernelIdeal.K.rinv E n) := fun n => inv_real (Cert.KernelIdeal.K.dstCol E) n
  have hh : ∀ n q, IsReal (Cert.KernelIdeal.K.hidS X E W1l b1 W1r n q) := fun n q =>
    hid_real (Cert.KernelIdeal.K.L E) (Cert.KernelIdeal.K.g E) (Cert.KernelIdeal.K.rinv E) hinv
      (fun n k => hX (ix2 n k)) (fun q k => hW1l (ix2 q k)) (fun q k => hW1r (ix2 q k)) (fun q => hb1 (ix1 q)) n q
  exact outK_eq_outR (Cert.KernelIdeal.K.L E) (Cert.KernelIdeal.K.g E) (Cert.KernelIdeal.K.rinv E) hh
    (fun j q => hW2l (ix2 j q)) hinv n j

end Cert.Bridge

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.Finite.lean ====
/-
  The precondition read on the extended reals: every entry of every float argument is a real number.

  The precondition is the conjunction, over the seven float arguments, of "every entry's absolute value is strictly below
  the float pattern of +∞". A conjunction of bits is one exactly when each is; a reduction by "and" over all axes is one
  only if every element is; and an extended real whose absolute value is below +∞ is neither infinity, so it is a real.
-/
import proofs.«116486_j83820581748942_2_alg».proof.Pre_finite_inputs
import proofs.«116486_j83820581748942_2_alg».proof.Proof.Gen.Pre_finite_inputs
import proofs.«116486_j83820581748942_2_alg».proof.Proof.LibFiniteReal
import proofs.«116486_j83820581748942_2_alg».proof.Proof.SageLaw
import Idealize.ShloMosaic.Lib.ReduceAll
import Idealize.ShloMosaic.Lib.IdealHost
import Idealize.ShloMosaic.Lib.ValueIdx

noncomputable section

namespace Cert.Pre_finite_inputs.Finite

open Idealize.ShloMosaic Idealize.ShloMosaic.ValueIdx Cert.Pre_finite_inputs Cert.Sage

instance : Subsingleton S_.Idx := Cert.Lib.FiniteReal.subsingleton_idx0

/-- An array all of whose entries pass the test has only real entries. -/
theorem real_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi
        (cmpf .olt (Host.absf x) (broadcastInDim s ![] hb (constant (F := Ideal) S_ .f32 0x7F800000#32)))
        (constantI S_ 1 1#1) h hu ix0 = 1#1) (i : s.Idx) : IsReal (x i) := by
  have hi := Host.reduce_andi_all _ _ h hu ix0 e i
  rw [cmpf_apply, broadcastInDim_scalar_apply, constant_apply] at hi
  exact Cert.Lib.FiniteReal.real_of_abs_lt_inf (x i) hi

/-- THE PRECONDITION gives: every entry of each of the seven float arguments is a real number. -/
theorem reals (a0 : FVec Ideal S100000x128 .f32) (a1 : IVec S2x800000 32) (a2 : FVec Ideal S256x128 .f32)
    (a3 : FVec Ideal S256 .f32) (a4 : FVec Ideal S256x128 .f32) (a5 : FVec Ideal S128x256 .f32)
    (a6 : FVec Ideal S128 .f32) (a7 : FVec Ideal S128x256 .f32)
    (h : fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ix0
  dsimp only [fn, fn_part1] at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7⟩

end Cert.Pre_finite_inputs.Finite

end
-- ==== Proof.lean ====
/- Two layers of mean-aggregating graph convolution over 100000 nodes and 800000 edges, computed two ways, are one array.

   The reference aggregates neighbour features along the edges, divides by the degree floored at one, and applies the
   neighbour weights, adds the bias and the root branch, a rectified hidden layer in between. The kernel program counts
   the degree once in integers and keeps its reciprocal as a column; it runs the hidden layer tile by tile (4000 rows at
   a time), scaling the aggregate by the reciprocal; for the output layer it first applies the neighbour weights to every
   node's hidden features, aggregates the projected features, and combines tile by tile.

   On the extended reals: dividing by a nonzero real is multiplying by its reciprocal, at the infinities too; the integer
   count converted to a float is the float count (fewer than 2^31 edges); sums of three terms may be reordered. These make
   the hidden layers equal with no assumption on the data. Projecting before aggregating is a change of the order of two
   sums and of a factor across a sum, which holds for real numbers: the precondition makes every argument entry real,
   hence every hidden feature and every reciprocal degree real.

   The modules: SageLaw (the layers and the law), Degree (the degree, its floor, its reciprocal, the integer count),
   Bodies and Region0-2 (each kernel's tile, and the array each region leaves), KDefs / KRead / KValue / KRun (the
   kernel program's host side, its value index by index, its result buffer after the run, the run), RefRead (the
   reference's value index by index), Finite (the precondition read as "every entry is real"), Bridge (the two values
   are one). The three frames are the generated ones; nothing was rewritten between the kernel and its idealization. -/
import proofs.«116486_j83820581748942_2_alg».proof.Defs
import proofs.«116486_j83820581748942_2_alg».proof.Proof.Gen.Kernel
import proofs.«116486_j83820581748942_2_alg».proof.Proof.Gen.Kernel.Frame
import proofs.«116486_j83820581748942_2_alg».proof.Proof.Gen.KernelIdeal
import proofs.«116486_j83820581748942_2_alg».proof.Proof.Gen.KernelIdeal.Frame
import proofs.«116486_j83820581748942_2_alg».proof.Proof.Gen.ReferenceIdeal
import proofs.«116486_j83820581748942_2_alg».proof.Proof.Gen.Pre_finite_inputs
import proofs.«116486_j83820581748942_2_alg».proof.Proof.Gen.ReferenceIdeal.Run
import proofs.«116486_j83820581748942_2_alg».proof.Proof.Gen.ReferenceIdeal.Read
import proofs.«116486_j83820581748942_2_alg».proof.Proof.KRun
import proofs.«116486_j83820581748942_2_alg».proof.Proof.KValue
import proofs.«116486_j83820581748942_2_alg».proof.Proof.Bridge
import proofs.«116486_j83820581748942_2_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel program and its reading at the exact values. -/
theorem preserves : Cert.preserves_Kernel_KernelIdeal := trivial

/-- At the exact values both programs end with the same array: the kernel's result buffer holds its value at the
    arguments, the reference's its own value at arguments that agree, and on real data the two values are one. -/
theorem algebraic : Cert.algebraic_KernelIdeal_ReferenceIdeal := by
  intro m ρ m' ρ' hpre hagree
  refine ⟨fun c => Cert.KernelIdeal.K.outArr (Cert.KernelIdeal.KValue.aX m c) (Cert.KernelIdeal.KValue.aE m c)
    (Cert.KernelIdeal.KValue.aW1l m c) (Cert.KernelIdeal.KValue.ab1 m c) (Cert.KernelIdeal.KValue.aW1r m c)
    (Cert.KernelIdeal.KValue.aW2l m c) (Cert.KernelIdeal.KValue.ab2 m c) (Cert.KernelIdeal.KValue.aW2r m c), ?_, ?_⟩
  · exact (θ_run Cert.KernelIdeal.defs _ _).mono
      (fun r h c => ⟨(h c).1.trans (Cert.KernelIdeal.KValue.W6_v42 m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v58_eq, a0, a1, a2, a3, a4, a5, a6, a7]
    obtain ⟨r0, r2, r3, r4, r5, r6, r7⟩ := Cert.Pre_finite_inputs.Finite.reals _ _ _ _ _ _ _ _ (hpre c)
    exact (Cert.Bridge.out_eq _ _ _ _ _ _ _ _ r0 r2 r3 r4 r5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
